-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : FVec F S64x512x512 .f32) (main_arg1 : FVec F S64x512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  main_v8
-- ==== Kernel.lean ====
abbrev S64x512x512 : Shape := ⟨3, ![64, 512, 512]⟩
abbrev S7x64x512 : Shape := ⟨3, ![7, 64, 512]⟩
abbrev S8x256x512 : Shape := ⟨3, ![8, 256, 512]⟩
abbrev S7x8x512 : Shape := ⟨3, ![7, 8, 512]⟩
abbrev S8x512 : Shape := ⟨2, ![8, 512]⟩
abbrev S1x8x512 : Shape := ⟨3, ![1, 8, 512]⟩
abbrev S_ : Shape := ⟨0, ![]⟩
abbrev S7x64 : Shape := ⟨2, ![7, 64]⟩
abbrev S1x64 : Shape := ⟨2, ![1, 64]⟩
abbrev S64 : Shape := ⟨1, ![64]⟩
abbrev S64x1 : Shape := ⟨2, ![64, 1]⟩
abbrev S64x3 : Shape := ⟨2, ![64, 3]⟩

abbrev nBuf : Space → Nat
  | .hbm => 90
  | .vmem => 6
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S7x64x512, .f32⟩
  | .hbm, ⟨3, _⟩ => ⟨S_, .f32⟩
  | .hbm, ⟨4, _⟩ => ⟨S7x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x1, .f32⟩
  | .hbm, ⟨23, _⟩ => ⟨S64x1, .f32⟩
  | .hbm, ⟨24, _⟩ => ⟨S64x3, .f32⟩
  | .hbm, ⟨25, _⟩ => ⟨S64, .f32⟩
  | .hbm, ⟨26, _⟩ => ⟨S64, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S64x3, .f32⟩
  | .hbm, ⟨37, _⟩ => ⟨S64x3, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64x1, .f32⟩
  | .hbm, ⟨44, _⟩ => ⟨S64x3, .f32⟩
  | .hbm, ⟨45, _⟩ => ⟨S64x3, .f32⟩
  | .hbm, ⟨46, _⟩ => ⟨S64x3, .f32⟩
  | .hbm, ⟨47, _⟩ => ⟨S_, .f32⟩
  | .hbm, ⟨48, _⟩ => ⟨S64, .f32⟩
  | .hbm, ⟨49, _⟩ => ⟨S64x1, .f32⟩
  | .hbm, ⟨50, _⟩ => ⟨S64x3, .f32⟩
  | .hbm, ⟨51, _⟩ => ⟨S64x3, .f32⟩
  | .hbm, ⟨52, _⟩ => ⟨S_, .f32⟩
  | .hbm, ⟨53, _⟩ => ⟨S64x3, .f32⟩
  | .hbm, ⟨54, _⟩ => ⟨S64x3, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64x1, .f32⟩
  | .hbm, ⟨61, _⟩ => ⟨S64x3, .f32⟩
  | .hbm, ⟨62, _⟩ => ⟨S64x3, .f32⟩
  | .hbm, ⟨63, _⟩ => ⟨S64x3, .f32⟩
  | .hbm, ⟨64, _⟩ => ⟨S_, .f32⟩
  | .hbm, ⟨65, _⟩ => ⟨S64, .f32⟩
  | .hbm, ⟨66, _⟩ => ⟨S64x1, .f32⟩
  | .hbm, ⟨67, _⟩ => ⟨S64x3, .f32⟩
  | .hbm, ⟨68, _⟩ => ⟨S64x3, .f32⟩
  | .hbm, ⟨69, _⟩ => ⟨S_, .f32⟩
  | .hbm, ⟨70, _⟩ => ⟨S64x3, .f32⟩
  | .hbm, ⟨71, _⟩ => ⟨S64x3, .f32⟩
  | .hbm, ⟨72, _⟩ => ⟨S64x3, .f32⟩
  | .hbm, ⟨73, _⟩ => ⟨S_, .f32⟩
  | .hbm, ⟨74, _⟩ => ⟨S64x3, .f32⟩
  | .hbm, ⟨75, _⟩ => ⟨S64x3, .f32⟩
  | .hbm, ⟨76, _⟩ => ⟨S64x3, .f32⟩
  | .hbm, ⟨77, _⟩ => ⟨S64x3, .f32⟩
  | .hbm, ⟨78, _⟩ => ⟨S64x3, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S7x8x512, .f32⟩
  | .local _ .vmem, ⟨5, _⟩ => ⟨S7x8x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_6 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_10 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_11 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_12 : Ref sig .tc := ⟨.hbm, 79, rfl⟩
abbrev main_v64 : Ref sig .tc := ⟨.hbm, 80, rfl⟩
abbrev main_cst_13 : Ref sig .tc := ⟨.hbm, 81, rfl⟩
abbrev main_v65 : Ref sig .tc := ⟨.hbm, 82, rfl⟩
abbrev main_cst_14 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_cst_16 : Ref sig .tc := ⟨.hbm, 87, rfl⟩
abbrev main_v68 : Ref sig .tc := ⟨.hbm, 88, rfl⟩
abbrev main_v69 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S7x8x512_S7x8x512_0_0_0 : ∀ a, (![0, 0, 0] : Fin 3 → Nat) a + S7x8x512.size a ≤ S7x8x512.size a
  h_S7x8x512 : 0 < S7x8x512.numel
  inb_S8x256x512_S8x256x512_0_0_0 : ∀ a, (![0, 0, 0] : Fin 3 → Nat) a + S8x256x512.size a ≤ S8x256x512.size a
  h_S8x256x512 : 0 < S8x256x512.numel
  reduces_S8x256x512_S8x512 : S8x256x512.Reduces [1] S8x512
  natLt_1_32 : 1 < 32
  shapeCasts_S8x512_S1x8x512 : S8x512.ShapeCasts S1x8x512
  concatenates_S1x8x512_S1x8x512_S1x8x512_S1x8x512_S1x8x512_S1x8x512_S1x8x512_S7x8x512_d0 : Shape.Concatenates [S1x8x512, S1x8x512, S1x8x512, S1x8x512, S1x8x512, S1x8x512, S1x8x512] S7x8x512 0
  shapeCasts_S7x8x512_S7x8x512 : S7x8x512.ShapeCasts S7x8x512
  reducesTo_S7x64x512_S7x64_d2 : S7x64x512.ReducesTo [2] S7x64
  h_S_ : 0 < S_.numel
  slices_S7x64_S1x64_0_0 : S7x64.Slices ![0, 0] S1x64
  shapeCasts_S1x64_S64 : S1x64.ShapeCasts S64
  slices_S7x64_S1x64_1_0 : S7x64.Slices ![1, 0] S1x64
  slices_S7x64_S1x64_2_0 : S7x64.Slices ![2, 0] S1x64
  slices_S7x64_S1x64_3_0 : S7x64.Slices ![3, 0] S1x64
  slices_S7x64_S1x64_4_0 : S7x64.Slices ![4, 0] S1x64
  slices_S7x64_S1x64_5_0 : S7x64.Slices ![5, 0] S1x64
  slices_S7x64_S1x64_6_0 : S7x64.Slices ![6, 0] S1x64
  bcast_S64_S64x1_0 : S64.BroadcastsInDim S64x1 (![0] : Fin 1 → Fin S64x1.rank)
  concatenates_S64x1_S64x1_S64x1_S64x3_d1 : Shape.Concatenates [S64x1, S64x1, S64x1] S64x3 1
  reducesTo_S64_S_d0 : S64.ReducesTo [0] S_
  bcast_S_S64x3 : S_.BroadcastsInDim S64x3 (![] : Fin 0 → Fin S64x3.rank)
  reducesTo_S64x3_S64_d1 : S64x3.ReducesTo [1] S64
  bcast_S_S64 : S_.BroadcastsInDim S64 (![] : Fin 0 → Fin S64.rank)
  bcast_S64x1_S64x3_0_1 : S64x1.BroadcastsInDim S64x3 (![0, 1] : Fin 2 → Fin S64x3.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S64x512x512.size a
  hwx0_0 : ∀ i : grid0.Coords, EltTy.bits .f32 = 32 ∨ (Rect.block (s := S64x512x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S64x512x512.size a
  hwx0_1 : ∀ i : grid0.Coords, EltTy.bits .f32 = 32 ∨ (Rect.block (s := S64x512x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7x8x512.size a ≤ S7x64x512.size a
  hwx0_2 : ∀ i : grid0.Coords, EltTy.bits .f32 = 32 ∨ (Rect.block (s := S7x64x512) S7x8x512.size (cc0_transform_2 i) (hinb0_2 i)).WholeWords (EltTy.packing .f32)

variable [Facts₀]

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S7x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S_ : Shape := ⟨0, ![]⟩
abbrev S64x262144 : Shape := ⟨2, ![64, 262144]⟩
abbrev S64 : Shape := ⟨1, ![64]⟩
abbrev S64x1 : Shape := ⟨2, ![64, 1]⟩
abbrev S64x3 : Shape := ⟨2, ![64, 3]⟩

abbrev nBuf : Space → Nat
  | .hbm => 148
  | .vmem => 0
  | .smem => 0
  | _ => 0

abbrev hbmTy0_0 (i : Nat) : BufTy := match i % 128 with
  | 0 => ⟨S64x512x512, .f32⟩
  | 1 => ⟨S64x512x512, .f32⟩
  | 2 => ⟨S_, .f32⟩
  | 3 => ⟨S64x512x512, .f32⟩
  | 4 => ⟨S64x512x512, .i1⟩
  | 5 => ⟨S64x512x512, .f32⟩
  | 6 => ⟨S64x512x512, .f32⟩
  | 7 => ⟨S64x512x512, .f32⟩
  | 8 => ⟨S_, .f32⟩
  | 9 => ⟨S64x512x512, .f32⟩
  | 10 => ⟨S64x512x512, .f32⟩
  | 11 => ⟨S64x512x512, .f32⟩
  | 12 => ⟨S_, .f32⟩
  | 13 => ⟨S64x512x512, .f32⟩
  | 14 => ⟨S64x512x512, .f32⟩
  | 15 => ⟨S64x512x512, .f32⟩
  | 16 => ⟨S64x512x512, .f32⟩
  | 17 => ⟨S64x512x512, .f32⟩
  | 18 => ⟨S64x512x512, .f32⟩
  | 19 => ⟨S_, .f32⟩
  | 20 => ⟨S_, .f32⟩
  | 21 => ⟨S_, .f32⟩
  | 22 => ⟨S_, .f32⟩
  | 23 => ⟨S64x262144, .f32⟩
  | 24 => ⟨S_, .f32⟩
  | 25 => ⟨S64x262144, .f32⟩
  | 26 => ⟨S64x262144, .i1⟩
  | 27 => ⟨S_, .f32⟩
  | 28 => ⟨S64x262144, .f32⟩
  | 29 => ⟨S64x262144, .i1⟩
  | 30 => ⟨S64x262144, .i1⟩
  | 31 => ⟨S64x262144, .f32⟩
  | 32 => ⟨S_, .f32⟩
  | 33 => ⟨S64, .f32⟩
  | 34 => ⟨S_, .f32⟩
  | 35 => ⟨S64x262144, .f32⟩
  | 36 => ⟨S64x262144, .i1⟩
  | 37 => ⟨S_, .f32⟩
  | 38 => ⟨S64x262144, .f32⟩
  | 39 => ⟨S64x262144, .i1⟩
  | 40 => ⟨S64x262144, .i1⟩
  | 41 => ⟨S64x262144, .f32⟩
  | 42 => ⟨S_, .f32⟩
  | 43 => ⟨S64, .f32⟩
  | 44 => ⟨S_, .f32⟩
  | 45 => ⟨S64x262144, .f32⟩
  | 46 => ⟨S64x262144, .i1⟩
  | 47 => ⟨S_, .f32⟩
  | 48 => ⟨S64x262144, .f32⟩
  | 49 => ⟨S64x262144, .i1⟩
  | 50 => ⟨S64x262144, .i1⟩
  | 51 => ⟨S64x262144, .f32⟩
  | 52 => ⟨S_, .f32⟩
  | 53 => ⟨S64, .f32⟩
  | 54 => ⟨S64x1, .f32⟩
  | 55 => ⟨S64x1, .f32⟩
  | 56 => ⟨S64x1, .f32⟩
  | 57 => ⟨S64x3, .f32⟩
  | 58 => ⟨S_, .f32⟩
  | 59 => ⟨S64x3, .f32⟩
  | 60 => ⟨S64x3, .f32⟩
  | 61 => ⟨S_, .f32⟩
  | 62 => ⟨S64, .f32⟩
  | 63 => ⟨S_, .f32⟩
  | 64 => ⟨S64, .f32⟩
  | 65 => ⟨S64, .f32⟩
  | 66 => ⟨S64x1, .f32⟩
  | 67 => ⟨S64x3, .f32⟩
  | 68 => ⟨S64x3, .f32⟩
  | 69 => ⟨S64x3, .f32⟩
  | 70 => ⟨S_, .f32⟩
  | 71 => ⟨S64, .f32⟩
  | 72 => ⟨S64x1, .f32⟩
  | 73 => ⟨S64x3, .f32⟩
  | 74 => ⟨S64x3, .f32⟩
  | 75 => ⟨S64x262144, .f32⟩
  | 76 => ⟨S_, .f32⟩
  | 77 => ⟨S64x262144, .f32⟩
  | 78 => ⟨S64x262144, .i1⟩
  | 79 => ⟨S_, .f32⟩
  | 80 => ⟨S64x262144, .f32⟩
  | 81 => ⟨S64x262144, .i1⟩
  | 82 => ⟨S64x262144, .i1⟩
  | 83 => ⟨S64x262144, .f32⟩
  | 84 => ⟨S_, .f32⟩
  | 85 => ⟨S64, .f32⟩
  | 86 => ⟨S_, .f32⟩
  | 87 => ⟨S64x262144, .f32⟩
  | 88 => ⟨S64x262144, .i1⟩
  | 89 => ⟨S_, .f32⟩
  | 90 => ⟨S64x262144, .f32⟩
  | 91 => ⟨S64x262144, .i1⟩
  | 92 => ⟨S64x262144, .i1⟩
  | 93 => ⟨S64x262144, .f32⟩
  | 94 => ⟨S_, .f32⟩
  | 95 => ⟨S64, .f32⟩
  | 96 => ⟨S_, .f32⟩
  | 97 => ⟨S64x262144, .f32⟩
  | 98 => ⟨S64x262144, .i1⟩
  | 99 => ⟨S_, .f32⟩
  | 100 => ⟨S64x262144, .f32⟩
  | 101 => ⟨S64x262144, .i1⟩
  | 102 => ⟨S64x262144, .i1⟩
  | 103 => ⟨S64x262144, .f32⟩
  | 104 => ⟨S_, .f32⟩
  | 105 => ⟨S64, .f32⟩
  | 106 => ⟨S64x1, .f32⟩
  | 107 => ⟨S64x1, .f32⟩
  | 108 => ⟨S64x1, .f32⟩
  | 109 => ⟨S64x3, .f32⟩
  | 110 => ⟨S_, .f32⟩
  | 111 => ⟨S64x3, .f32⟩
  | 112 => ⟨S64x3, .f32⟩
  | 113 => ⟨S_, .f32⟩
  | 114 => ⟨S64, .f32⟩
  | 115 => ⟨S_, .f32⟩
  | 116 => ⟨S64, .f32⟩
  | 117 => ⟨S64, .f32⟩
  | 118 => ⟨S64x1, .f32⟩
  | 119 => ⟨S64x3, .f32⟩
  | 120 => ⟨S64x3, .f32⟩
  | 121 => ⟨S64x3, .f32⟩
  | 122 => ⟨S_, .f32⟩
  | 123 => ⟨S64, .f32⟩
  | 124 => ⟨S64x1, .f32⟩
  | 125 => ⟨S64x3, .f32⟩
  | 126 => ⟨S64x3, .f32⟩
  | 127 => ⟨S_, .f32⟩
  | _ => ⟨S64x512x512, .f32⟩

abbrev hbmTy0_1 (i : Nat) : BufTy := match i % 128 with
  | 0 => ⟨S64x3, .f32⟩
  | 1 => ⟨S64x3, .f32⟩
  | 2 => ⟨S64x3, .f32⟩
  | 3 => ⟨S_, .f32⟩
  | 4 => ⟨S64x3, .f32⟩
  | 5 => ⟨S64x3, .f32⟩
  | 6 => ⟨S64x3, .f32⟩
  | 7 => ⟨S64x3, .f32⟩
  | 8 => ⟨S64x3, .f32⟩
  | 9 => ⟨S_, .f32⟩
  | 10 => ⟨S64, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S64x512x512, .f32⟩

abbrev hbmTy (i : Nat) : BufTy := match i / 128 with
  | 0 => hbmTy0_0 i
  | 1 => hbmTy0_1 i
  | _ => ⟨S64x512x512, .f32⟩

abbrev bufTy : (tb : Table) → Fin (tcTables nBuf tb) → BufTy
  | .hbm, ⟨i, _⟩ => hbmTy i
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_16 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_18 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_cst_22 : Ref sig .tc := ⟨.hbm, 96, rfl⟩
abbrev main_v69 : Ref sig .tc := ⟨.hbm, 97, rfl⟩
abbrev main_v70 : Ref sig .tc := ⟨.hbm, 98, rfl⟩
abbrev main_cst_23 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_24 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_25 : Ref sig .tc := ⟨.hbm, 110, rfl⟩
abbrev main_v80 : Ref sig .tc := ⟨.hbm, 111, rfl⟩
abbrev main_v81 : Ref sig .tc := ⟨.hbm, 112, rfl⟩
abbrev main_cst_26 : Ref sig .tc := ⟨.hbm, 113, rfl⟩
abbrev main_v82 : Ref sig .tc := ⟨.hbm, 114, rfl⟩
abbrev main_cst_27 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_28 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_29 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_30 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_31 : Ref sig .tc := ⟨.hbm, 137, rfl⟩
abbrev main_v101 : Ref sig .tc := ⟨.hbm, 138, rfl⟩
abbrev main_cst_32 : Ref sig .tc := ⟨.hbm, 139, rfl⟩
abbrev main_v102 : Ref sig .tc := ⟨.hbm, 140, rfl⟩
abbrev main_cst_33 : Ref sig .tc := ⟨.hbm, 141, rfl⟩
abbrev main_v103 : Ref sig .tc := ⟨.hbm, 142, rfl⟩
abbrev main_cst_34 : Ref sig .tc := ⟨.hbm, 143, rfl⟩
abbrev main_v104 : Ref sig .tc := ⟨.hbm, 144, rfl⟩
abbrev main_cst_35 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  shapeCasts_S64x512x512_S64x262144 : S64x512x512.ShapeCasts S64x262144
  bcast_S_S64x262144 : S_.BroadcastsInDim S64x262144 (![] : Fin 0 → Fin S64x262144.rank)
  reducesTo_S64x262144_S64_d1 : S64x262144.ReducesTo [1] S64
  bcast_S64_S64x1_0 : S64.BroadcastsInDim S64x1 (![0] : Fin 1 → Fin S64x1.rank)
  concatenates_S64x1_S64x1_S64x1_S64x3_d1 : Shape.Concatenates [S64x1, S64x1, S64x1] S64x3 1
  bcast_S_S64x3 : S_.BroadcastsInDim S64x3 (![] : Fin 0 → Fin S64x3.rank)
  reducesTo_S64x3_S64_d1 : S64x3.ReducesTo [1] S64
  bcast_S_S64 : S_.BroadcastsInDim S64 (![] : Fin 0 → Fin S64.rank)
  bcast_S64x1_S64x3_0_1 : S64x1.BroadcastsInDim S64x3 (![0, 1] : Fin 2 → Fin S64x3.rank)
  reducesTo_S64_S_d0 : S64.ReducesTo [0] S_

variable [Facts₀]

class Facts : Prop extends Facts₀ where

variable [Facts]
-- ==== Proof.KB.TailLemma.lean ====
/-
  An operation that writes exactly one buffer, and that buffer is none of the three arrays the region stages,
  writes no staged array.
-/
import proofs.«145640_j80479097193024_2_alg».proof.Proof.Gen.Kernel.Launch
import Idealize.ShloMosaic.Lib.Pipeline.FrameSuffix

noncomputable section

namespace Cert.Kernel.Acc

open Idealize.ShloMosaic Idealize.ShloMosaic.TcCoe Idealize.SL.Sem
open Cert.Kernel Cert.Kernel.Gen

variable {F : FTy → Type} [FloatOps F]

theorem keeps_of {op : HloOp τ sig (Elt F)} (y : Ref sig .tc) (hw : op.writes = {Proc.devRef .tc y})
    (hy : ∀ w : Fin 3, Pipeline.arrRef spec0 w ≠ y) : ∀ w : Fin 3, Proc.devRef .tc (Pipeline.arrRef spec0 w) ∉ op.writes :=
  fun w => by rw [hw, Finset.mem_singleton]; exact StableHlo.devRef_ne_of_ne (hy w)

end Cert.Kernel.Acc

end
-- ==== Proof.KB.TailTable.lean ====
/-
  The host operations after the region, one row each: none allocates, and each writes exactly one buffer,
  its own result, which is none of the three arrays the region stages.
-/
import proofs.«145640_j80479097193024_2_alg».proof.Proof.KB.TailLemma

set_option maxRecDepth 16384
set_option maxHeartbeats 4000000

noncomputable section

namespace Cert.Kernel.Acc

open Idealize.ShloMosaic Idealize.ShloMosaic.TcCoe Idealize.SL.Sem
open Cert.Kernel Cert.Kernel.Gen

variable {F : FTy → Type} [FloatOps F]

/-- None of the later operations allocates. -/
theorem tail_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every later operation writes its own result buffer, which is none of the three staged arrays. -/
theorem tail_writes : (hostOps1 : List (HloOp τ sig (Elt F))).Forall fun op =>
    ∀ w : Fin 3, Proc.devRef .tc (Pipeline.arrRef spec0 w) ∉ op.writes :=
  ⟨keeps_of main_cst (StableHlo.nullary_writes ..) (by decide),
    keeps_of main_v1 (StableHlo.binary_writes ..) (by decide),
    keeps_of main_v2 (StableHlo.unary_writes ..) (by decide),
    keeps_of main_v3 (StableHlo.reshape_writes ..) (by decide),
    keeps_of main_v4 (StableHlo.unary_writes ..) (by decide),
    keeps_of main_v5 (StableHlo.reshape_writes ..) (by decide),
    keeps_of main_v6 (StableHlo.unary_writes ..) (by decide),
    keeps_of main_v7 (StableHlo.reshape_writes ..) (by decide),
    keeps_of main_v8 (StableHlo.unary_writes ..) (by decide),
    keeps_of main_v9 (StableHlo.reshape_writes ..) (by decide),
    keeps_of main_v10 (StableHlo.unary_writes ..) (by decide),
    keeps_of main_v11 (StableHlo.reshape_writes ..) (by decide),
    keeps_of main_v12 (StableHlo.unary_writes ..) (by decide),
    keeps_of main_v13 (StableHlo.reshape_writes ..) (by decide),
    keeps_of main_v14 (StableHlo.unary_writes ..) (by decide),
    keeps_of main_v15 (StableHlo.reshape_writes ..) (by decide),
    keeps_of main_v16 (StableHlo.binary_writes ..) (by decide),
    keeps_of main_v17 (StableHlo.binary_writes ..) (by decide),
    keeps_of main_v18 (StableHlo.unary_writes ..) (by decide),
    keeps_of main_v19 (StableHlo.unary_writes ..) (by decide),
    keeps_of main_v20 (StableHlo.unary_writes ..) (by decide),
    keeps_of main_v21 (StableHlo.nary_writes ..) (by decide),
    keeps_of main_v22 (StableHlo.binary_writes ..) (by decide),
    keeps_of main_v23 (StableHlo.binary_writes ..) (by decide),
    keeps_of main_v24 (StableHlo.unary_writes ..) (by decide),
    keeps_of main_v25 (StableHlo.unary_writes ..) (by decide),
    keeps_of main_v26 (StableHlo.unary_writes ..) (by decide),
    keeps_of main_v27 (StableHlo.nary_writes ..) (by decide),
    keeps_of main_cst_0 (StableHlo.nullary_writes ..) (by decide),
    keeps_of main_v28 (StableHlo.binary_writes ..) (by decide),
    keeps_of main_cst_1 (StableHlo.nullary_writes ..) (by decide),
    keeps_of main_v29 (StableHlo.binary_writes ..) (by decide),
    keeps_of main_cst_2 (StableHlo.nullary_writes ..) (by decide),
    keeps_of main_v30 (StableHlo.unary_writes ..) (by decide),
    keeps_of main_v31 (StableHlo.binary_writes ..) (by decide),
    keeps_of main_cst_3 (StableHlo.nullary_writes ..) (by decide),
    keeps_of main_v32 (StableHlo.binary_writes ..) (by decide),
    keeps_of main_cst_4 (StableHlo.nullary_writes ..) (by decide),
    keeps_of main_v33 (StableHlo.unary_writes ..) (by decide),
    keeps_of main_v34 (StableHlo.binary_writes ..) (by decide),
    keeps_of main_v35 (StableHlo.unary_writes ..) (by decide),
    keeps_of main_v36 (StableHlo.unary_writes ..) (by decide),
    keeps_of main_v37 (StableHlo.binary_writes ..) (by decide),
    keeps_of main_v38 (StableHlo.unary_writes ..) (by decide),
    keeps_of main_cst_5 (StableHlo.nullary_writes ..) (by decide),
    keeps_of main_v39 (StableHlo.binary_writes ..) (by decide),
    keeps_of main_v40 (StableHlo.unary_writes ..) (by decide),
    keeps_of main_v41 (StableHlo.unary_writes ..) (by decide),
    keeps_of main_v42 (StableHlo.binary_writes ..) (by decide),
    keeps_of main_cst_6 (StableHlo.nullary_writes ..) (by decide),
    keeps_of main_v43 (StableHlo.unary_writes ..) (by decide),
    keeps_of main_v44 (StableHlo.binary_writes ..) (by decide),
    keeps_of main_cst_7 (StableHlo.nullary_writes ..) (by decide),
    keeps_of main_v45 (StableHlo.binary_writes ..) (by decide),
    keeps_of main_cst_8 (StableHlo.nullary_writes ..) (by decide),
    keeps_of main_v46 (StableHlo.unary_writes ..) (by decide),
    keeps_of main_v47 (StableHlo.binary_writes ..) (by decide),
    keeps_of main_v48 (StableHlo.unary_writes ..) (by decide),
    keeps_of main_v49 (StableHlo.unary_writes ..) (by decide),
    keeps_of main_v50 (StableHlo.binary_writes ..) (by decide),
    keeps_of main_v51 (StableHlo.unary_writes ..) (by decide),
    keeps_of main_cst_9 (StableHlo.nullary_writes ..) (by decide),
    keeps_of main_v52 (StableHlo.binary_writes ..) (by decide),
    keeps_of main_v53 (StableHlo.unary_writes ..) (by decide),
    keeps_of main_v54 (StableHlo.unary_writes ..) (by decide),
    keeps_of main_v55 (StableHlo.binary_writes ..) (by decide),
    keeps_of main_cst_10 (StableHlo.nullary_writes ..) (by decide),
    keeps_of main_v56 (StableHlo.unary_writes ..) (by decide),
    keeps_of main_v57 (StableHlo.binary_writes ..) (by decide),
    keeps_of main_v58 (StableHlo.unary_writes ..) (by decide),
    keeps_of main_cst_11 (StableHlo.nullary_writes ..) (by decide),
    keeps_of main_v59 (StableHlo.unary_writes ..) (by decide),
    keeps_of main_v60 (StableHlo.binary_writes ..) (by decide),
    keeps_of main_v61 (StableHlo.unary_writes ..) (by decide),
    keeps_of main_v62 (StableHlo.binary_writes ..) (by decide),
    keeps_of main_v63 (StableHlo.binary_writes ..) (by decide),
    keeps_of main_cst_12 (StableHlo.nullary_writes ..) (by decide),
    keeps_of main_v64 (StableHlo.binary_writes ..) (by decide),
    keeps_of main_cst_13 (StableHlo.nullary_writes ..) (by decide),
    keeps_of main_v65 (StableHlo.binary_writes ..) (by decide),
    keeps_of main_cst_14 (StableHlo.nullary_writes ..) (by decide),
    keeps_of main_v66 (StableHlo.binary_writes ..) (by decide),
    keeps_of main_cst_15 (StableHlo.nullary_writes ..) (by decide),
    keeps_of main_v67 (StableHlo.binary_writes ..) (by decide),
    keeps_of main_cst_16 (StableHlo.nullary_writes ..) (by decide),
    keeps_of main_v68 (StableHlo.binary_writes ..) (by decide),
    keeps_of main_v69 (StableHlo.binary_writes ..) (by decide)⟩

end Cert.Kernel.Acc

end
-- ==== Proof.KB.Entry.lean ====
/-
  The region's surroundings for the binned-loss statistics kernel, at any float instance.

  @main is one region followed by eighty-seven host operations. This module states what the region finds
  (the launch memory: nothing runs before it), that @main is the region continued by those operations,
  that the later operations stay within the unscoped buffers, allocate nothing and never write one of the
  three arrays the region stages (the two inputs and the statistics array), the block of each window at a
  grid point, and the closed form of the body's one branch condition: the accumulator is reset exactly at
  the even points (second grid coordinate zero).
-/
import proofs.«145640_j80479097193024_2_alg».proof.Proof.KB.TailTable
import proofs.«145640_j80479097193024_2_alg».proof.Proof.Gen.Kernel.Skeleton
import proofs.«145640_j80479097193024_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 4000000

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory (no operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-- @main is the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later operations touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_writes) op hop

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data on the region-entry
    arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- The body's one branch: "the second grid coordinate is zero", as the scalar chain the body computes. -/
abbrev isFirst (i : grid0.Coords) : Prop := (Scalar.cmpi .ne (Scalar.extui (Scalar.cmpi .eq (BitVec.ofNat 32 (i 1).val) 0#32)) 0#32) = 1#1
/-- It holds exactly at the even points. -/
theorem isFirst_iff : ∀ t : Fin cfg0.N, isFirst (grid0.coords t) ↔ t.val % 2 = 0 :=
  (by decide +kernel : ∀ t : Fin grid0.N, isFirst (grid0.coords t) ↔ t.val % 2 = 0)

/-! ## The staging memrefs at a point -/

/-- One staging buffer of the statistics window, through which its contents are stated. -/
abbrev VOut : View sig .tc .vmem S7x8x512 .f32 := (Memref.whole cc0_stg2_0 : Memref sig .tc .vmem S7x8x512 .f32).view
abbrev ms0 (t : Fin cfg0.N) : Memref sig .tc .vmem S8x256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S7x8x512 .f32 := win0_2.stage (cfg0.slots t 2)
abbrev hs2 (t : Fin cfg0.N) : (ms2 t).IsWhole := hstage0_2 ((cfg0.slots t 2).cast nbuf0_2)

end Cert.Kernel.Acc

end
-- ==== Proof.KB.RunFirst.lean ====
/-
  The body's run at a point where the accumulator is reset (second grid coordinate zero), on any whole
  staging memrefs: the two input buffers hold their blocks `x0`, `x1` and come back unchanged; the statistics
  buffer, whatever it held, ends with the pieces the two stores leave (the zero fill, then the sum of what
  was read back and this block's seven partial sums). The pieces are found by running the body.
-/
import proofs.«145640_j80479097193024_2_alg».proof.Proof.KB.Entry

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : isFirst i) (x0 : Vec F S8x256x512 .f32) (x1 : Vec F S8x256x512 .f32) :
    { L : List (View.Piece (Elt F) S7x8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Acc

end
-- ==== Proof.KB.RunLater.lean ====
/-
  The body's run at a point where the accumulator is carried (second grid coordinate not zero), on any whole
  staging memrefs: the input buffers hold their blocks `x0`, `x1` and come back unchanged; the statistics
  buffer holds the running sums `xo` and ends with the piece the one store leaves (the running sums plus this
  block's seven partial sums). The piece is found by running the body.
-/
import proofs.«145640_j80479097193024_2_alg».proof.Proof.KB.RunFirst

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLater (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : ¬isFirst i) (x0 : Vec F S8x256x512 .f32) (x1 : Vec F S8x256x512 .f32) (xo : Vec F S7x8x512 .f32) :
    { L : List (View.Piece (Elt F) S7x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Acc

end
-- ==== Proof.KB.Frame.lean ====
/-
  The frame run of the statistics kernel, at any float instance.

  What the statistics window's staging buffer holds after the body at each grid point is defined by recursion
  on the point: at an even point (accumulator reset) the pieces of the reset run over this point's input
  blocks; at an odd point the pieces of the carrying run over this point's input blocks and what the point
  before left (the buffer is written back only after odd points, so between an even point and the next
  nothing touches it). With this as proof data, every point's body obligation is one of the two runs, and the
  library's frame run around a region gives: @main terminates without a fault, the three staged arrays end at
  what the proof data compute, and every other buffer ends as the later host operations leave it.
-/
import proofs.«145640_j80479097193024_2_alg».proof.Proof.KB.RunLater

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset run's two stores tile the statistics block. -/
theorem coverFirst (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : isFirst i) (x0 x1 : Vec F S8x256x512 .f32) (y : S7x8x512.Idx) :
    ∃ pc ∈ (runFirst c i arg2 harg2 arg3 harg3 arg4 harg4 hc x0 x1).1, y ∈ pc.1.set :=
  View.cover_of_tiledL (runFirst c i arg2 harg2 arg3 harg3 arg4 harg4 hc x0 x1).1 S7x8x512.size (by sl_kernel_rfl) y

/-- What the reset run leaves in the statistics buffer. -/
def outFirst (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : isFirst i) (x0 x1 : Vec F S8x256x512 .f32) : Vec F S7x8x512 .f32 :=
  VOut.read (Elt F) (VOut.writes (Elt F) VOut.junk (runFirst c i arg2 harg2 arg3 harg3 arg4 harg4 hc x0 x1).1)

/-- The carrying run's store tiles the statistics block. -/
theorem coverLater (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : ¬isFirst i) (x0 x1 : Vec F S8x256x512 .f32) (xo : Vec F S7x8x512 .f32) (y : S7x8x512.Idx) :
    ∃ pc ∈ (runLater c i arg2 harg2 arg3 harg3 arg4 harg4 hc x0 x1 xo).1, y ∈ pc.1.set :=
  View.cover_of_tiledL (runLater c i arg2 harg2 arg3 harg3 arg4 harg4 hc x0 x1 xo).1 S7x8x512.size (by sl_kernel_rfl) y

/-- What the carrying run leaves in the statistics buffer. -/
def outLater (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : ¬isFirst i) (x0 x1 : Vec F S8x256x512 .f32) (xo : Vec F S7x8x512 .f32) : Vec F S7x8x512 .f32 :=
  VOut.read (Elt F) (VOut.writes (Elt F) VOut.junk (runLater c i arg2 harg2 arg3 harg3 arg4 harg4 hc x0 x1 xo).1)

/-! ## The running sums, point by point -/

/-- What the statistics buffer holds after the body at position `n` of the grid's order. -/
def accAt (c : Dev nD) : (n : ℕ) → n < cfg0.N → Vec F S7x8x512 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((isFirst_iff ⟨0, hn⟩).mpr (Nat.zero_mod _)) (iblk m c 0 ⟨0, hn⟩) (iblk m c 1 ⟨0, hn⟩)
  | n + 1, hn =>
    if h0 : (n + 1) % 2 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((isFirst_iff ⟨n + 1, hn⟩).mpr h0) (iblk m c 0 ⟨n + 1, hn⟩) (iblk m c 1 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((isFirst_iff ⟨n + 1, hn⟩).mp h)) (iblk m c 0 ⟨n + 1, hn⟩) (iblk m c 1 ⟨n + 1, hn⟩) (accAt c n (Nat.lt_of_succ_lt hn))

/-- At an even point: the reset run's contents. -/
theorem accAt_even (c : Dev nD) (t : Fin cfg0.N) (h0 : t.val % 2 = 0) :
    accAt m c t.val t.isLt = outFirst c (grid0.coords t) (ms0 t) (hs0 t) (ms1 t) (hs1 t) (ms2 t) (hs2 t) ((isFirst_iff t).mpr h0) (iblk m c 0 t) (iblk m c 1 t) := by
  obtain ⟨n, hn⟩ := t
  cases n with
  | zero => exact rfl
  | succ n => exact (dif_pos h0).trans rfl

/-- At an odd point: the carrying run's contents over what the point before left. -/
theorem accAt_odd (c : Dev nD) (t : Fin cfg0.N) (h0 : ¬t.val % 2 = 0) :
    accAt m c t.val t.isLt = outLater c (grid0.coords t) (ms0 t) (hs0 t) (ms1 t) (hs1 t) (ms2 t) (hs2 t) (fun h => h0 ((isFirst_iff t).mp h)) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The region's proof data on core `c`: the arrays as found; after the body each input's buffer at its block
    and the statistics buffer at the running sums; the invariant is the library's plain one; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (accAt m c t.val t.isLt) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d

/-- At an odd point the statistics buffer still holds what the point before left: it is written back only
    after odd points, and the point before an odd one is even. -/
theorem before_2_odd (c : Dev nD) (t : Fin cfg0.N) (h0 : ¬t.val % 2 = 0) (d) :
    (dats m 0 c).before 2 t d = (accAt m c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the parity of the point says which run
    applies; at an odd point the statistics buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  have hN : t.val < 16 := lt_of_lt_of_eq t.isLt (show cfg0.N = 16 from N_0)
  by_cases h0 : t.val % 2 = 0
  · rw [accAt_even m c t h0]
    unfold outFirst
    iintro ⟨HΦ, Ho, ⟨%d0, H0⟩, ⟨%d1, H1⟩, ⟨%d2, H2⟩⟩
    iapply ((runFirst c (grid0.coords t) _ _ _ _ _ _ ((isFirst_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_odd m c t h0]
    simp only [before_2_odd m c t h0]
    unfold outLater
    iintro ⟨HΦ, Ho, ⟨%d0, H0⟩, ⟨%d1, H1⟩, ⟨%d2, H2⟩⟩
    iapply ((runLater c (grid0.coords t) _ _ _ _ _ _ (fun h => h0 ((isFirst_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- Every weakly fair execution of @main terminates without a fault; the staged arrays end at what the proof
    data compute, every other unscoped buffer as the later operations leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel.Acc

end
-- ==== Proof.KI.TailLemma.lean ====
/-
  An operation that writes exactly one buffer, and that buffer is none of the three arrays the region stages,
  writes no staged array.
-/
import proofs.«145640_j80479097193024_2_alg».proof.Proof.Gen.KernelIdeal.Launch
import Idealize.ShloMosaic.Lib.Pipeline.FrameSuffix

noncomputable section

namespace Cert.KernelIdeal.Acc

open Idealize.ShloMosaic Idealize.ShloMosaic.TcCoe Idealize.SL.Sem
open Cert.KernelIdeal Cert.KernelIdeal.Gen

variable {F : FTy → Type} [FloatOps F]

theorem keeps_of {op : HloOp τ sig (Elt F)} (y : Ref sig .tc) (hw : op.writes = {Proc.devRef .tc y})
    (hy : ∀ w : Fin 3, Pipeline.arrRef spec0 w ≠ y) : ∀ w : Fin 3, Proc.devRef .tc (Pipeline.arrRef spec0 w) ∉ op.writes :=
  fun w => by rw [hw, Finset.mem_singleton]; exact StableHlo.devRef_ne_of_ne (hy w)

end Cert.KernelIdeal.Acc

end
-- ==== Proof.KI.TailTable.lean ====
/-
  The host operations after the region, one row each: none allocates, and each writes exactly one buffer,
  its own result, which is none of the three arrays the region stages.
-/
import proofs.«145640_j80479097193024_2_alg».proof.Proof.KI.TailLemma

set_option maxRecDepth 16384
set_option maxHeartbeats 4000000

noncomputable section

namespace Cert.KernelIdeal.Acc

open Idealize.ShloMosaic Idealize.ShloMosaic.TcCoe Idealize.SL.Sem
open Cert.KernelIdeal Cert.KernelIdeal.Gen

variable {F : FTy → Type} [FloatOps F]

/-- None of the later operations allocates. -/
theorem tail_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every later operation writes its own result buffer, which is none of the three staged arrays. -/
theorem tail_writes : (hostOps1 : List (HloOp τ sig (Elt F))).Forall fun op =>
    ∀ w : Fin 3, Proc.devRef .tc (Pipeline.arrRef spec0 w) ∉ op.writes :=
  ⟨keeps_of main_cst (StableHlo.nullary_writes ..) (by decide),
    keeps_of main_v1 (StableHlo.binary_writes ..) (by decide),
    keeps_of main_v2 (StableHlo.unary_writes ..) (by decide),
    keeps_of main_v3 (StableHlo.reshape_writes ..) (by decide),
    keeps_of main_v4 (StableHlo.unary_writes ..) (by decide),
    keeps_of main_v5 (StableHlo.reshape_writes ..) (by decide),
    keeps_of main_v6 (StableHlo.unary_writes ..) (by decide),
    keeps_of main_v7 (StableHlo.reshape_writes ..) (by decide),
    keeps_of main_v8 (StableHlo.unary_writes ..) (by decide),
    keeps_of main_v9 (StableHlo.reshape_writes ..) (by decide),
    keeps_of main_v10 (StableHlo.unary_writes ..) (by decide),
    keeps_of main_v11 (StableHlo.reshape_writes ..) (by decide),
    keeps_of main_v12 (StableHlo.unary_writes ..) (by decide),
    keeps_of main_v13 (StableHlo.reshape_writes ..) (by decide),
    keeps_of main_v14 (StableHlo.unary_writes ..) (by decide),
    keeps_of main_v15 (StableHlo.reshape_writes ..) (by decide),
    keeps_of main_v16 (StableHlo.binary_writes ..) (by decide),
    keeps_of main_v17 (StableHlo.binary_writes ..) (by decide),
    keeps_of main_v18 (StableHlo.unary_writes ..) (by decide),
    keeps_of main_v19 (StableHlo.unary_writes ..) (by decide),
    keeps_of main_v20 (StableHlo.unary_writes ..) (by decide),
    keeps_of main_v21 (StableHlo.nary_writes ..) (by decide),
    keeps_of main_v22 (StableHlo.binary_writes ..) (by decide),
    keeps_of main_v23 (StableHlo.binary_writes ..) (by decide),
    keeps_of main_v24 (StableHlo.unary_writes ..) (by decide),
    keeps_of main_v25 (StableHlo.unary_writes ..) (by decide),
    keeps_of main_v26 (StableHlo.unary_writes ..) (by decide),
    keeps_of main_v27 (StableHlo.nary_writes ..) (by decide),
    keeps_of main_cst_0 (StableHlo.nullary_writes ..) (by decide),
    keeps_of main_v28 (StableHlo.binary_writes ..) (by decide),
    keeps_of main_cst_1 (StableHlo.nullary_writes ..) (by decide),
    keeps_of main_v29 (StableHlo.binary_writes ..) (by decide),
    keeps_of main_cst_2 (StableHlo.nullary_writes ..) (by decide),
    keeps_of main_v30 (StableHlo.unary_writes ..) (by decide),
    keeps_of main_v31 (StableHlo.binary_writes ..) (by decide),
    keeps_of main_cst_3 (StableHlo.nullary_writes ..) (by decide),
    keeps_of main_v32 (StableHlo.binary_writes ..) (by decide),
    keeps_of main_cst_4 (StableHlo.nullary_writes ..) (by decide),
    keeps_of main_v33 (StableHlo.unary_writes ..) (by decide),
    keeps_of main_v34 (StableHlo.binary_writes ..) (by decide),
    keeps_of main_v35 (StableHlo.unary_writes ..) (by decide),
    keeps_of main_v36 (StableHlo.unary_writes ..) (by decide),
    keeps_of main_v37 (StableHlo.binary_writes ..) (by decide),
    keeps_of main_v38 (StableHlo.unary_writes ..) (by decide),
    keeps_of main_cst_5 (StableHlo.nullary_writes ..) (by decide),
    keeps_of main_v39 (StableHlo.binary_writes ..) (by decide),
    keeps_of main_v40 (StableHlo.unary_writes ..) (by decide),
    keeps_of main_v41 (StableHlo.unary_writes ..) (by decide),
    keeps_of main_v42 (StableHlo.binary_writes ..) (by decide),
    keeps_of main_cst_6 (StableHlo.nullary_writes ..) (by decide),
    keeps_of main_v43 (StableHlo.unary_writes ..) (by decide),
    keeps_of main_v44 (StableHlo.binary_writes ..) (by decide),
    keeps_of main_cst_7 (StableHlo.nullary_writes ..) (by decide),
    keeps_of main_v45 (StableHlo.binary_writes ..) (by decide),
    keeps_of main_cst_8 (StableHlo.nullary_writes ..) (by decide),
    keeps_of main_v46 (StableHlo.unary_writes ..) (by decide),
    keeps_of main_v47 (StableHlo.binary_writes ..) (by decide),
    keeps_of main_v48 (StableHlo.unary_writes ..) (by decide),
    keeps_of main_v49 (StableHlo.unary_writes ..) (by decide),
    keeps_of main_v50 (StableHlo.binary_writes ..) (by decide),
    keeps_of main_v51 (StableHlo.unary_writes ..) (by decide),
    keeps_of main_cst_9 (StableHlo.nullary_writes ..) (by decide),
    keeps_of main_v52 (StableHlo.binary_writes ..) (by decide),
    keeps_of main_v53 (StableHlo.unary_writes ..) (by decide),
    keeps_of main_v54 (StableHlo.unary_writes ..) (by decide),
    keeps_of main_v55 (StableHlo.binary_writes ..) (by decide),
    keeps_of main_cst_10 (StableHlo.nullary_writes ..) (by decide),
    keeps_of main_v56 (StableHlo.unary_writes ..) (by decide),
    keeps_of main_v57 (StableHlo.binary_writes ..) (by decide),
    keeps_of main_v58 (StableHlo.unary_writes ..) (by decide),
    keeps_of main_cst_11 (StableHlo.nullary_writes ..) (by decide),
    keeps_of main_v59 (StableHlo.unary_writes ..) (by decide),
    keeps_of main_v60 (StableHlo.binary_writes ..) (by decide),
    keeps_of main_v61 (StableHlo.unary_writes ..) (by decide),
    keeps_of main_v62 (StableHlo.binary_writes ..) (by decide),
    keeps_of main_v63 (StableHlo.binary_writes ..) (by decide),
    keeps_of main_cst_12 (StableHlo.nullary_writes ..) (by decide),
    keeps_of main_v64 (StableHlo.binary_writes ..) (by decide),
    keeps_of main_cst_13 (StableHlo.nullary_writes ..) (by decide),
    keeps_of main_v65 (StableHlo.binary_writes ..) (by decide),
    keeps_of main_cst_14 (StableHlo.nullary_writes ..) (by decide),
    keeps_of main_v66 (StableHlo.binary_writes ..) (by decide),
    keeps_of main_cst_15 (StableHlo.nullary_writes ..) (by decide),
    keeps_of main_v67 (StableHlo.binary_writes ..) (by decide),
    keeps_of main_cst_16 (StableHlo.nullary_writes ..) (by decide),
    keeps_of main_v68 (StableHlo.binary_writes ..) (by decide),
    keeps_of main_v69 (StableHlo.binary_writes ..) (by decide)⟩

end Cert.KernelIdeal.Acc

end
-- ==== Proof.KI.Entry.lean ====
/-
  The region's surroundings for the binned-loss statistics kernel, at any float instance.

  @main is one region followed by eighty-seven host operations. This module states what the region finds
  (the launch memory: nothing runs before it), that @main is the region continued by those operations,
  that the later operations stay within the unscoped buffers, allocate nothing and never write one of the
  three arrays the region stages (the two inputs and the statistics array), the block of each window at a
  grid point, and the closed form of the body's one branch condition: the accumulator is reset exactly at
  the even points (second grid coordinate zero).
-/
import proofs.«145640_j80479097193024_2_alg».proof.Proof.KI.TailTable
import proofs.«145640_j80479097193024_2_alg».proof.Proof.Gen.KernelIdeal.Skeleton
import proofs.«145640_j80479097193024_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 4000000

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory (no operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-- @main is the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later operations touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_writes) op hop

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data on the region-entry
    arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- The body's one branch: "the second grid coordinate is zero", as the scalar chain the body computes. -/
abbrev isFirst (i : grid0.Coords) : Prop := (Scalar.cmpi .ne (Scalar.extui (Scalar.cmpi .eq (BitVec.ofNat 32 (i 1).val) 0#32)) 0#32) = 1#1
/-- It holds exactly at the even points. -/
theorem isFirst_iff : ∀ t : Fin cfg0.N, isFirst (grid0.coords t) ↔ t.val % 2 = 0 :=
  (by decide +kernel : ∀ t : Fin grid0.N, isFirst (grid0.coords t) ↔ t.val % 2 = 0)

/-! ## The staging memrefs at a point -/

/-- One staging buffer of the statistics window, through which its contents are stated. -/
abbrev VOut : View sig .tc .vmem S7x8x512 .f32 := (Memref.whole cc0_stg2_0 : Memref sig .tc .vmem S7x8x512 .f32).view
abbrev ms0 (t : Fin cfg0.N) : Memref sig .tc .vmem S8x256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S7x8x512 .f32 := win0_2.stage (cfg0.slots t 2)
abbrev hs2 (t : Fin cfg0.N) : (ms2 t).IsWhole := hstage0_2 ((cfg0.slots t 2).cast nbuf0_2)

end Cert.KernelIdeal.Acc

end
-- ==== Proof.KI.RunFirst.lean ====
/-
  The body's run at a point where the accumulator is reset (second grid coordinate zero), on any whole
  staging memrefs: the two input buffers hold their blocks `x0`, `x1` and come back unchanged; the statistics
  buffer, whatever it held, ends with the pieces the two stores leave (the zero fill, then the sum of what
  was read back and this block's seven partial sums). The pieces are found by running the body.
-/
import proofs.«145640_j80479097193024_2_alg».proof.Proof.KI.Entry

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : isFirst i) (x0 : Vec F S8x256x512 .f32) (x1 : Vec F S8x256x512 .f32) :
    { L : List (View.Piece (Elt F) S7x8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Acc

end
-- ==== Proof.KI.RunLater.lean ====
/-
  The body's run at a point where the accumulator is carried (second grid coordinate not zero), on any whole
  staging memrefs: the input buffers hold their blocks `x0`, `x1` and come back unchanged; the statistics
  buffer holds the running sums `xo` and ends with the piece the one store leaves (the running sums plus this
  block's seven partial sums). The piece is found by running the body.
-/
import proofs.«145640_j80479097193024_2_alg».proof.Proof.KI.RunFirst

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLater (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : ¬isFirst i) (x0 : Vec F S8x256x512 .f32) (x1 : Vec F S8x256x512 .f32) (xo : Vec F S7x8x512 .f32) :
    { L : List (View.Piece (Elt F) S7x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Acc

end
-- ==== Proof.KI.Frame.lean ====
/-
  The frame run of the statistics kernel, at any float instance.

  What the statistics window's staging buffer holds after the body at each grid point is defined by recursion
  on the point: at an even point (accumulator reset) the pieces of the reset run over this point's input
  blocks; at an odd point the pieces of the carrying run over this point's input blocks and what the point
  before left (the buffer is written back only after odd points, so between an even point and the next
  nothing touches it). With this as proof data, every point's body obligation is one of the two runs, and the
  library's frame run around a region gives: @main terminates without a fault, the three staged arrays end at
  what the proof data compute, and every other buffer ends as the later host operations leave it.
-/
import proofs.«145640_j80479097193024_2_alg».proof.Proof.KI.RunLater

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset run's two stores tile the statistics block. -/
theorem coverFirst (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : isFirst i) (x0 x1 : Vec F S8x256x512 .f32) (y : S7x8x512.Idx) :
    ∃ pc ∈ (runFirst c i arg2 harg2 arg3 harg3 arg4 harg4 hc x0 x1).1, y ∈ pc.1.set :=
  View.cover_of_tiledL (runFirst c i arg2 harg2 arg3 harg3 arg4 harg4 hc x0 x1).1 S7x8x512.size (by sl_kernel_rfl) y

/-- What the reset run leaves in the statistics buffer. -/
def outFirst (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : isFirst i) (x0 x1 : Vec F S8x256x512 .f32) : Vec F S7x8x512 .f32 :=
  VOut.read (Elt F) (VOut.writes (Elt F) VOut.junk (runFirst c i arg2 harg2 arg3 harg3 arg4 harg4 hc x0 x1).1)

/-- The carrying run's store tiles the statistics block. -/
theorem coverLater (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : ¬isFirst i) (x0 x1 : Vec F S8x256x512 .f32) (xo : Vec F S7x8x512 .f32) (y : S7x8x512.Idx) :
    ∃ pc ∈ (runLater c i arg2 harg2 arg3 harg3 arg4 harg4 hc x0 x1 xo).1, y ∈ pc.1.set :=
  View.cover_of_tiledL (runLater c i arg2 harg2 arg3 harg3 arg4 harg4 hc x0 x1 xo).1 S7x8x512.size (by sl_kernel_rfl) y

/-- What the carrying run leaves in the statistics buffer. -/
def outLater (c : Dev nD) (i : grid0.Coords) (arg2 : Memref sig .tc .vmem S8x256x512 .f32) (harg2 : arg2.IsWhole)
    (arg3 : Memref sig .tc .vmem S8x256x512 .f32) (harg3 : arg3.IsWhole) (arg4 : Memref sig .tc .vmem S7x8x512 .f32) (harg4 : arg4.IsWhole)
    (hc : ¬isFirst i) (x0 x1 : Vec F S8x256x512 .f32) (xo : Vec F S7x8x512 .f32) : Vec F S7x8x512 .f32 :=
  VOut.read (Elt F) (VOut.writes (Elt F) VOut.junk (runLater c i arg2 harg2 arg3 harg3 arg4 harg4 hc x0 x1 xo).1)

/-! ## The running sums, point by point -/

/-- What the statistics buffer holds after the body at position `n` of the grid's order. -/
def accAt (c : Dev nD) : (n : ℕ) → n < cfg0.N → Vec F S7x8x512 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((isFirst_iff ⟨0, hn⟩).mpr (Nat.zero_mod _)) (iblk m c 0 ⟨0, hn⟩) (iblk m c 1 ⟨0, hn⟩)
  | n + 1, hn =>
    if h0 : (n + 1) % 2 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((isFirst_iff ⟨n + 1, hn⟩).mpr h0) (iblk m c 0 ⟨n + 1, hn⟩) (iblk m c 1 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((isFirst_iff ⟨n + 1, hn⟩).mp h)) (iblk m c 0 ⟨n + 1, hn⟩) (iblk m c 1 ⟨n + 1, hn⟩) (accAt c n (Nat.lt_of_succ_lt hn))

/-- At an even point: the reset run's contents. -/
theorem accAt_even (c : Dev nD) (t : Fin cfg0.N) (h0 : t.val % 2 = 0) :
    accAt m c t.val t.isLt = outFirst c (grid0.coords t) (ms0 t) (hs0 t) (ms1 t) (hs1 t) (ms2 t) (hs2 t) ((isFirst_iff t).mpr h0) (iblk m c 0 t) (iblk m c 1 t) := by
  obtain ⟨n, hn⟩ := t
  cases n with
  | zero => exact rfl
  | succ n => exact (dif_pos h0).trans rfl

/-- At an odd point: the carrying run's contents over what the point before left. -/
theorem accAt_odd (c : Dev nD) (t : Fin cfg0.N) (h0 : ¬t.val % 2 = 0) :
    accAt m c t.val t.isLt = outLater c (grid0.coords t) (ms0 t) (hs0 t) (ms1 t) (hs1 t) (ms2 t) (hs2 t) (fun h => h0 ((isFirst_iff t).mp h)) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The region's proof data on core `c`: the arrays as found; after the body each input's buffer at its block
    and the statistics buffer at the running sums; the invariant is the library's plain one; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (accAt m c t.val t.isLt) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d

/-- At an odd point the statistics buffer still holds what the point before left: it is written back only
    after odd points, and the point before an odd one is even. -/
theorem before_2_odd (c : Dev nD) (t : Fin cfg0.N) (h0 : ¬t.val % 2 = 0) (d) :
    (dats m 0 c).before 2 t d = (accAt m c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the parity of the point says which run
    applies; at an odd point the statistics buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  have hN : t.val < 16 := lt_of_lt_of_eq t.isLt (show cfg0.N = 16 from N_0)
  by_cases h0 : t.val % 2 = 0
  · rw [accAt_even m c t h0]
    unfold outFirst
    iintro ⟨HΦ, Ho, ⟨%d0, H0⟩, ⟨%d1, H1⟩, ⟨%d2, H2⟩⟩
    iapply ((runFirst c (grid0.coords t) _ _ _ _ _ _ ((isFirst_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_odd m c t h0]
    simp only [before_2_odd m c t h0]
    unfold outLater
    iintro ⟨HΦ, Ho, ⟨%d0, H0⟩, ⟨%d1, H1⟩, ⟨%d2, H2⟩⟩
    iapply ((runLater c (grid0.coords t) _ _ _ _ _ _ (fun h => h0 ((isFirst_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- Every weakly fair execution of @main terminates without a fault; the staged arrays end at what the proof
    data compute, every other unscoped buffer as the later operations leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Acc

end
-- ==== Proof.KI.PieceValues.lean ====
/-
  What the two runs of the body leave in the statistics buffer, as values, and where a window's block sits in
  its array.

  At a carrying point the body's one store writes  acc + partial,  where `acc` is what the buffer held and
  `partial` the seven partial sums over this point's input blocks; at a reset point the buffer is first
  filled with zeros and read back, and the same store writes  0 + partial.
  The grid's point t = 2·bi + hi (bi < 8 sample blocks, hi < 2 row blocks) stages samples 8·bi … 8·bi+7,
  rows 256·hi … 256·hi+255 of each input, and samples 8·bi … 8·bi+7 of the statistics array (all seven
  statistics, all columns); the statistics block is written back after the odd points, and those blocks
  cover the statistics array.
-/
import proofs.«145640_j80479097193024_2_alg».proof.Proof.KI.Frame
import Idealize.ShloMosaic.Lib.Pipeline.Value
import Idealize.ShloMosaic.Lib.ValueIdx

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

variable (m : (ℓ : Loc nD τ sig) → Buf (Elt F) ℓ)

theorem hz3 : (![0, 0, 0] : Fin 3 → Nat) = fun _ => 0 := funext fun a => by fin_cases a <;> rfl

/-- The seven partial sums of input blocks `x0` (predict) and `x1` (truth), added to `acc`. -/
abbrev addPartial (x0 x1 : Vec F S8x256x512 .f32) (acc : Vec F S7x8x512 .f32) : Vec F S7x8x512 .f32 :=
  k0_pay1 x0 (k0_pay3 x0 x1) (k0_pay4 x1) (k0_pay5 x1) (k0_pay6 x1) (k0_pay7 x0) (k0_pay8 x0) acc

/-- A carrying point leaves the running sums plus this point's partial sums. -/
theorem outLater_eq (c : Dev nD) (i : grid0.Coords) (a2 : Memref sig .tc .vmem S8x256x512 .f32) (h2 : a2.IsWhole)
    (a3 : Memref sig .tc .vmem S8x256x512 .f32) (h3 : a3.IsWhole) (a4 : Memref sig .tc .vmem S7x8x512 .f32) (h4 : a4.IsWhole)
    (hc : ¬isFirst i) (x0 x1 : Vec F S8x256x512 .f32) (xo : Vec F S7x8x512 .f32) :
    outLater c i a2 h2 a3 h3 a4 h4 hc x0 x1 xo = addPartial x0 x1 xo := by
  unfold outLater
  rw [View.read_writes_eq_canon _ _ _ (coverLater c i a2 h2 a3 h3 a4 h4 hc x0 x1 xo)]
  unfold runLater
  dsimp only
  sl_unfold_words
  rw [View.canon_unit_zero hz3]
  simp only [View.readAt_eq_ld, h2.read_unread, h3.read_unread, h4.read_unread, View.ld_unit_zero (S := S8x256x512) hz3,
    View.ld_unit_zero (S := S7x8x512) hz3]

/-- A reset point leaves zero plus this point's partial sums. -/
theorem outFirst_eq (c : Dev nD) (i : grid0.Coords) (a2 : Memref sig .tc .vmem S8x256x512 .f32) (h2 : a2.IsWhole)
    (a3 : Memref sig .tc .vmem S8x256x512 .f32) (h3 : a3.IsWhole) (a4 : Memref sig .tc .vmem S7x8x512 .f32) (h4 : a4.IsWhole)
    (hc : isFirst i) (x0 x1 : Vec F S8x256x512 .f32) :
    outFirst c i a2 h2 a3 h3 a4 h4 hc x0 x1 = addPartial x0 x1 (k0_pay2 (F := F)) := by
  unfold outFirst
  rw [View.read_writes_eq_canon _ _ _ (coverFirst c i a2 h2 a3 h3 a4 h4 hc x0 x1)]
  unfold runFirst
  dsimp only
  sl_unfold_words
  rw [View.canon_cons_unit_zero (S := S7x8x512) hz3, View.readCov_unit_zero (S := S7x8x512) _ hz3]
  simp only [View.readAt_eq_ld, h2.read_unread, h3.read_unread, View.ld_unit_zero (S := S8x256x512) hz3,
    View.ld_unit_zero (S := S7x8x512) hz3]

/-! ## Where the blocks sit -/

/-- The windows' block indices at point `t`: (t/2, t%2, 0) for both inputs, (0, t/2, 0) for the statistics. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = 0 ∧ win0_2.index t (1 : Fin 3) = t.val / 2 ∧ win0_2.index t (2 : Fin 3) = 0 :=
  (by decide +kernel : ∀ t : Fin grid0.N, _)

/-- The sample that row `b` of point `t`'s blocks is. -/
def sampleOf (t : Fin cfg0.N) (b : Fin 8) : Fin 64 :=
  ⟨8 * (t.val / 2) + b.val, by have hN : t.val < 16 := lt_of_lt_of_eq t.isLt (show cfg0.N = 16 from N_0); omega⟩
/-- The array row that row `h` of point `t`'s input blocks is. -/
def lineOf (t : Fin cfg0.N) (h : Fin 256) : Fin 512 := ⟨256 * (t.val % 2) + h.val, by omega⟩

/-- An element of the first input's block at point `t` is the array's element at that sample and row. -/
theorem iblk0_apply (c : Dev nD) (t : Fin cfg0.N) (b : Fin 8) (h : Fin 256) (w : Fin 512) :
    (iblk m c 0 t : Vec F S8x256x512 .f32) (ix3 b h w)
      = (V m c main_arg0 : S64x512x512.Idx → Elt F .f32) (ix3 (sampleOf t b) (lineOf t h) w) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 8 + 1 * b.val = 8 * (t.val / 2) + b.val; omega
  | ⟨1, _⟩ => show win0_0.index t (1 : Fin 3) * 256 + 1 * h.val = 256 * (t.val % 2) + h.val; omega
  | ⟨2, _⟩ => show win0_0.index t (2 : Fin 3) * 512 + 1 * w.val = w.val; omega

/-- The same for the second input. -/
theorem iblk1_apply (c : Dev nD) (t : Fin cfg0.N) (b : Fin 8) (h : Fin 256) (w : Fin 512) :
    (iblk m c 1 t : Vec F S8x256x512 .f32) (ix3 b h w)
      = (V m c main_arg1 : S64x512x512.Idx → Elt F .f32) (ix3 (sampleOf t b) (lineOf t h) w) := by
  obtain ⟨-, -, -, e0, e1, e2, -⟩ := idx_facts t
  unfold iblk
  rw [View.read_apply]
  show V m c main_arg1 _ = V m c main_arg1 _
  congr 1
  funext a; apply Fin.ext
  match a with
  | ⟨0, _⟩ => show win0_1.index t (0 : Fin 3) * 8 + 1 * b.val = 8 * (t.val / 2) + b.val; omega
  | ⟨1, _⟩ => show win0_1.index t (1 : Fin 3) * 256 + 1 * h.val = 256 * (t.val % 2) + h.val; omega
  | ⟨2, _⟩ => show win0_1.index t (2 : Fin 3) * 512 + 1 * w.val = w.val; omega

/-- Where an element of the statistics block at point `t` sits in the statistics array. -/
theorem emb2_apply (t : Fin cfg0.N) (k : Fin 7) (b : Fin 8) (w : Fin 512) :
    ((cfg0.win 2).blk t).view.emb (ix3 k b w : S7x8x512.Idx) = (ix3 k (sampleOf t b) w : S7x64x512.Idx) := by
  obtain ⟨-, -, -, -, -, -, e0, e1, e2⟩ := idx_facts t
  funext a; apply Fin.ext
  match a with
  | ⟨0, _⟩ => show win0_2.index t (0 : Fin 3) * 7 + 1 * k.val = k.val; omega
  | ⟨1, _⟩ => show win0_2.index t (1 : Fin 3) * 8 + 1 * b.val = 8 * (t.val / 2) + b.val; omega
  | ⟨2, _⟩ => show win0_2.index t (2 : Fin 3) * 512 + 1 * w.val = w.val; omega

/-- An index of the statistics array is in point `t`'s block iff each coordinate is in the block's range. -/
theorem mem_blk2 (t : Fin cfg0.N) (i : S7x64x512.Idx) :
    i ∈ ((cfg0.win 2).blk t).view.set ↔ ∀ a : Fin 3, win0_2.index t a * S7x8x512.size a ≤ (i a).val
      ∧ (i a).val < win0_2.index t a * S7x8x512.size a + S7x8x512.size a := by
  show i ∈ ((View.whole main_v0).slice (win0_2.rect t)).set ↔ _
  rw [View.set_slice_whole, Rect.mem_set_unit]
  exact Iff.rfl

/-- Every index of the statistics array lies in a block that is written back: that of the odd point of its
    sample block. -/
theorem covered2 (i : S7x64x512.Idx) : ∃ t : Fin cfg0.N, (cfg0.win 2).flush t = true ∧ i ∈ ((cfg0.win 2).blk t).view.set := by
  have h0 : (i 0).val < 7 := (i 0).isLt
  have h1 : (i 1).val < 64 := (i 1).isLt
  have h2 : (i 2).val < 512 := (i 2).isLt
  have hN : cfg0.N = 16 := N_0
  refine ⟨⟨2 * ((i 1).val / 8) + 1, by have hg : grid0.N = 16 := N_0; have hc : cfg0.N = 16 := N_0; omega⟩, (flush0_2 _).mpr (by show (2 * ((i 1).val / 8) + 1) % 2 = 1; omega), ?_⟩
  rw [mem_blk2]
  obtain ⟨-, -, -, -, -, -, e0, e1, e2⟩ := idx_facts ⟨2 * ((i 1).val / 8) + 1, by have hg : grid0.N = 16 := N_0; have hc : cfg0.N = 16 := N_0; omega⟩
  have e1' : win0_2.index ⟨2 * ((i 1).val / 8) + 1, by have hg : grid0.N = 16 := N_0; have hc : cfg0.N = 16 := N_0; omega⟩ (1 : Fin 3) = (2 * ((i 1).val / 8) + 1) / 2 := e1
  intro a
  match a with
  | ⟨0, _⟩ => show win0_2.index _ (0 : Fin 3) * 7 ≤ (i 0).val ∧ (i 0).val < win0_2.index _ (0 : Fin 3) * 7 + 7; omega
  | ⟨1, _⟩ => show win0_2.index _ (1 : Fin 3) * 8 ≤ (i 1).val ∧ (i 1).val < win0_2.index _ (1 : Fin 3) * 8 + 8; omega
  | ⟨2, _⟩ => show win0_2.index _ (2 : Fin 3) * 512 ≤ (i 2).val ∧ (i 2).val < win0_2.index _ (2 : Fin 3) * 512 + 512; omega

end Cert.KernelIdeal.Acc

end
-- ==== Proof.Spec.lean ====
/-
  What both programs compute, stated once over plain extended-real arrays.

  `predict` and `truth` are arrays P, T over [64,512,512] (sample b, row h, column w).
  * The loss term of one element is  (relu(p) − t)²  where t < 1 and  (p − t)²  elsewhere (`lossM`); the mean
    loss is the sum of the terms over all 2^24 elements, divided by 2^24 (`lossArr`).
  * For an array X the three bin counts of sample b are the numbers of elements of X[b] in (0,2], in (2,4]
    and above 4 (`binCount`, `countsArr`).
  The kernel accumulates, per sample b and column w, seven sums over the rows h: the loss term, and the
  indicators of t > 0, t > 2, t > 4, p > 0, p > 2, p > 4 — each indicator computed as a comparison bit widened
  to a 32-bit integer and converted to a float (`above`) —: `term`, `stats`. Its host code then sums over the
  columns (`rowSum`), takes the loss row's total over the samples divided by 2^24 (`lossOf`), and recovers
  the bins as differences of the cumulative counts (`cntOf`).
-/
import Idealize.ShloMosaic.PureOps.Ideal
import Idealize.ShloMosaic.Lib.ValueIdx

noncomputable section

open scoped BigOperators

namespace Cert.BinLoss

open Idealize.ShloMosaic Idealize.ShloMosaic.ValueIdx

/-- The input arrays' type: extended reals over [64,512,512]. -/
abbrev In3 : Type := (⟨3, ![64, 512, 512]⟩ : Shape).Idx → EReal
/-- The statistics array's type: extended reals over [7,64,512]. -/
abbrev St3 : Type := (⟨3, ![7, 64, 512]⟩ : Shape).Idx → EReal

/-! ## The mathematical quantities -/

/-- One element's loss term. -/
def lossM (p t : EReal) : EReal := if t < 1 then (max p 0 - t) * (max p 0 - t) else (p - t) * (p - t)

/-- The indicator of a proposition as an extended real. -/
def ind (c : Prop) [Decidable c] : EReal := if c then 1 else 0

/-- The mean loss, as the scalar array both programs produce: the sum over all elements divided by 2^24
    (the divisor kept as its binary word). -/
def lossArr (P T : In3) : (⟨0, ![]⟩ : Shape).Idx → EReal := fun _ =>
  Ideal.div (∑ b : Fin 64, ∑ h : Fin 512, ∑ w : Fin 512, lossM (P (ix3 b h w)) (T (ix3 b h w))) (Ideal.ofBits .f32 0x4B800000#32)

/-- The number of elements of sample `b` of `X` in bin `n`: (0,2], (2,4], (4,∞). -/
def binCount (X : In3) (b : Fin 64) (n : Fin 3) : EReal :=
  ∑ h : Fin 512, ∑ w : Fin 512,
    match n with
    | 0 => ind (0 < X (ix3 b h w) ∧ X (ix3 b h w) ≤ 2)
    | 1 => ind (2 < X (ix3 b h w) ∧ X (ix3 b h w) ≤ 4)
    | 2 => ind (4 < X (ix3 b h w))

/-- The [64,3] array of bin counts. -/
def countsArr (X : In3) : (⟨2, ![64, 3]⟩ : Shape).Idx → EReal := fun i => binCount X (i 0) (i 1)

/-! ## The kernel's seven statistics -/

/-- The kernel's loss term: a select on the comparison bit of `t < 1`. -/
def lossSel (p t : Ideal .f32) : Ideal .f32 :=
  Scalar.select (FloatOps.cmpf (F := Ideal) (φ := .f32) .olt t (Scalar.ofBits (F := Ideal) .f32 0x3F800000#32))
    ((max p (Scalar.ofBits (F := Ideal) .f32 0x00000000#32) - t) * (max p (Scalar.ofBits (F := Ideal) .f32 0x00000000#32) - t))
    ((p - t) * (p - t))

/-- The kernel's indicator of `x > thr`: the comparison bit, widened to 32 bits, converted as a signed integer. -/
def above (thr : BitVec 32) (x : Ideal .f32) : Ideal .f32 :=
  FloatOps.sitofp (F := Ideal) .f32
    (BitVec.setWidth 32 (FloatOps.cmpf (F := Ideal) (φ := .f32) .ogt x (Scalar.ofBits (F := Ideal) .f32 thr)))

/-- Statistic `k`'s term at one element (p from `predict`, t from `truth`). -/
def term (k : Fin 7) (p t : Ideal .f32) : Ideal .f32 :=
  match k with
  | 0 => lossSel p t
  | 1 => above 0x00000000#32 t
  | 2 => above 0x40000000#32 t
  | 3 => above 0x40800000#32 t
  | 4 => above 0x00000000#32 p
  | 5 => above 0x40000000#32 p
  | 6 => above 0x40800000#32 p

/-- Statistic `k` of sample `b`, column `w`: the sum of the terms over the 512 rows. -/
def statsAt (P T : In3) (k : Fin 7) (b : Fin 64) (w : Fin 512) : EReal :=
  ∑ h : Fin 512, term k (P (ix3 b h w)) (T (ix3 b h w))

/-- The statistics array the kernel's region leaves. -/
def stats (P T : In3) : St3 := fun j => statsAt P T (j 0) (j 1) (j 2)

/-! ## What the kernel's host code makes of a statistics array -/

/-- Row `k` of sample `b` summed over the columns. -/
def rowSum (X : St3) (k : Fin 7) (b : Fin 64) : EReal := ∑ w : Fin 512, X (ix3 k b w)

/-- The loss row's total over the samples, divided by 2^24. -/
def lossOf (X : St3) : (⟨0, ![]⟩ : Shape).Idx → EReal := fun _ =>
  Ideal.div (∑ b : Fin 64, rowSum X 0 b) (Ideal.ofBits .f32 0x4B800000#32)

/-- Bin `n` of sample `b` recovered from three cumulative count rows `k0`, `k1`, `k2` (above 0, above 2, above 4). -/
def cntRow (X : St3) (k0 k1 k2 : Fin 7) (b : Fin 64) (n : Fin 3) : EReal :=
  match n with
  | 0 => rowSum X k0 b - rowSum X k1 b
  | 1 => rowSum X k1 b - rowSum X k2 b
  | 2 => rowSum X k2 b

/-- The [64,3] array of recovered bins. -/
def cntOf (X : St3) (k0 k1 k2 : Fin 7) : (⟨2, ![64, 3]⟩ : Shape).Idx → EReal := fun i => cntRow X k0 k1 k2 (i 0) (i 1)

end Cert.BinLoss

end
-- ==== Proof.BlockSums.lean ====
/-
  What the kernel body's arithmetic computes, read at an index, over the extended reals.

  The body receives a block of `predict` and the same block of `truth`, both over [8,256,512] (sample, row,
  column). Each of its seven statistics is the sum over the 256 rows of a pointwise expression of the two
  blocks; the seven [8,512] arrays of sums are viewed as [1,8,512] arrays, laid end to end along a new leading
  axis into a [7,8,512] array, and added to the accumulator. So at (k, b, w) the new accumulator is the old one
  plus the sum over the rows h of statistic k's term at (b, h, w) (`pay_acc`). The body's other stored value, the
  splat of the word 0x00000000 over [7,8,512], is zero at every index (`pay_zero`).

  The three operations that are not pointwise are each read at explicit coordinates first: the sum over the
  row axis (`rowReduce_apply`), the view of an [8,512] array as [1,8,512] (the library's lemma), and the
  seven-piece concatenation (`concat7_apply`). Everything else in a statistic is pointwise, and a pointwise
  operation at an index is the scalar operation on the operands at that index by definition.
-/
import proofs.«145640_j80479097193024_2_alg».proof.Proof.Gen.KernelIdeal.Skeleton
import proofs.«145640_j80479097193024_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BinLoss

open Cert.KernelIdeal Cert.KernelIdeal.Gen Idealize.ShloMosaic Idealize.ShloMosaic.ValueIdx

/-- The sum over the row axis of an [8,256,512] array, read at (b, w): the sum over the rows r of the array at
    (b, r, w). The index with r inserted on axis 1 of (b, w) is (b, r, w), coordinate by coordinate. -/
theorem rowReduce_apply (v : FVec Ideal S8x256x512 .f32) (h : S8x256x512.Reduces [1] S8x512) (hφ : FKind.Formats .f32)
    (hacc : (0x00000000#32 : BitVec 32) = FKind.add.neutral .f32 hφ) (b : Fin 8) (w : Fin 512) :
    multiReduction .add [1] S8x512 v 0x00000000#32 h hφ hacc (ix2 b w) = ∑ r : Fin 256, v (ix3 b r w) := by
  refine (Ideal.multiReduction_add_single v 0x00000000#32 h hφ hacc (ix2 b w)).trans ?_
  refine Finset.sum_congr rfl fun r _ => congrArg v ?_
  funext a
  match a with
  | ⟨0, _⟩ => exact Fin.ext rfl
  | ⟨1, _⟩ => exact Fin.ext rfl
  | ⟨2, _⟩ => exact Fin.ext rfl

/-- Seven [1,8,512] arrays laid end to end along axis 0, read at (k, b, w): the k-th array at (0, b, w). Piece k
    starts at offset k along the axis (the k pieces before it have extent 1 each), and the other two coordinates
    are kept. -/
theorem concat7_apply {α : Type} (p0 p1 p2 p3 p4 p5 p6 : S1x8x512.Idx → α)
    (h : Shape.Concatenates (([⟨S1x8x512, p0⟩, ⟨S1x8x512, p1⟩, ⟨S1x8x512, p2⟩, ⟨S1x8x512, p3⟩, ⟨S1x8x512, p4⟩, ⟨S1x8x512, p5⟩, ⟨S1x8x512, p6⟩] : List ((s : Shape) × (s.Idx → α))).map (·.1)) S7x8x512 0)
    (k : Fin 7) (b : Fin 8) (w : Fin 512) :
    concatenate S7x8x512 0 [⟨S1x8x512, p0⟩, ⟨S1x8x512, p1⟩, ⟨S1x8x512, p2⟩, ⟨S1x8x512, p3⟩, ⟨S1x8x512, p4⟩, ⟨S1x8x512, p5⟩, ⟨S1x8x512, p6⟩] h (ix3 k b w)
      = (match k with | 0 => p0 | 1 => p1 | 2 => p2 | 3 => p3 | 4 => p4 | 5 => p5 | 6 => p6) (ix3 (0 : Fin 1) b w) := by
  -- off the concatenation axis the piece's index and the result's index have the same coordinates
  have hi : ∀ c : Fin S1x8x512.rank, c.cast (rfl : S1x8x512.rank = S7x8x512.rank) ≠ (0 : Fin S7x8x512.rank) →
      ((ix3 (0 : Fin 1) b w : S1x8x512.Idx) c).val = ((ix3 k b w : S7x8x512.Idx) (c.cast rfl)).val := fun c =>
    match c with
    | ⟨0, _⟩ => fun hc => absurd rfl hc
    | ⟨1, _⟩ => fun _ => rfl
    | ⟨2, _⟩ => fun _ => rfl
  match k with
  | ⟨0, _⟩ => exact concatenate_apply_piece 0 _ h _ 0 (by show (0 : ℕ) < 7; omega) S1x8x512 p0 rfl rfl 0 rfl (ix3 (0 : Fin 1) b w) hi rfl
  | ⟨1, _⟩ => exact concatenate_apply_piece 0 _ h _ 1 (by show (1 : ℕ) < 7; omega) S1x8x512 p1 rfl rfl 1 rfl (ix3 (0 : Fin 1) b w) hi rfl
  | ⟨2, _⟩ => exact concatenate_apply_piece 0 _ h _ 2 (by show (2 : ℕ) < 7; omega) S1x8x512 p2 rfl rfl 2 rfl (ix3 (0 : Fin 1) b w) hi rfl
  | ⟨3, _⟩ => exact concatenate_apply_piece 0 _ h _ 3 (by show (3 : ℕ) < 7; omega) S1x8x512 p3 rfl rfl 3 rfl (ix3 (0 : Fin 1) b w) hi rfl
  | ⟨4, _⟩ => exact concatenate_apply_piece 0 _ h _ 4 (by show (4 : ℕ) < 7; omega) S1x8x512 p4 rfl rfl 4 rfl (ix3 (0 : Fin 1) b w) hi rfl
  | ⟨5, _⟩ => exact concatenate_apply_piece 0 _ h _ 5 (by show (5 : ℕ) < 7; omega) S1x8x512 p5 rfl rfl 5 rfl (ix3 (0 : Fin 1) b w) hi rfl
  | ⟨6, _⟩ => exact concatenate_apply_piece 0 _ h _ 6 (by show (6 : ℕ) < 7; omega) S1x8x512 p6 rfl rfl 6 rfl (ix3 (0 : Fin 1) b w) hi rfl

/-- The splat of the word 0x00000000 over [7,8,512], read at any index: the extended real 0. -/
theorem pay_zero (j : S7x8x512.Idx) : k0_pay2 (F := Ideal) j = 0 := Ideal.ofBits_zero_f32

/-- The new accumulator at (k, b, w): the old accumulator there plus the sum over the 256 rows h of statistic k's
    term at (b, h, w). The sum of two arrays at an index is the sum of their values there; the accumulator cast
    to its own shape is itself; the concatenation at (k, b, w) is piece k at (0, b, w), which is the k-th array
    of row sums at (b, w); and under the row sum each statistic's pointwise expression at (b, h, w) is that
    statistic's term of the two blocks' values there, by definition of the pointwise operations. -/
theorem pay_acc (x0 x1 : Vec Ideal S8x256x512 .f32) (acc : Vec Ideal S7x8x512 .f32) (k : Fin 7) (b : Fin 8) (w : Fin 512) :
    k0_pay1 (F := Ideal) x0 (k0_pay3 x0 x1) (k0_pay4 x1) (k0_pay5 x1) (k0_pay6 x1) (k0_pay7 x0) (k0_pay8 x0) acc (ix3 k b w)
      = acc (ix3 k b w) + ∑ h : Fin 256, term k (x0 (ix3 b h w)) (x1 (ix3 b h w)) := by
  unfold k0_pay1
  refine (addf_apply _ _ _).trans ?_
  refine congrArg₂ (· + ·) (congrFun (shapeCast_self acc _) _) ?_
  refine (concat7_apply _ _ _ _ _ _ _ _ k b w).trans ?_
  match k with
  | ⟨0, _⟩ =>
    -- the loss term: a select on the bit of t < 1 between (max p 0 − t)² and (p − t)²
    show shapeCast S1x8x512 _ shapeCasts_S8x512_S1x8x512 (ix3 (0 : Fin 1) b w) = _
    refine (shapeCast_ab_1ab_apply _ _ 0 b w).trans ?_
    unfold k0_pay3
    refine (rowReduce_apply _ _ _ _ b w).trans ?_
    exact Finset.sum_congr rfl fun r _ => rfl
  | ⟨1, _⟩ =>
    -- the indicator of t > 0
    show shapeCast S1x8x512 _ shapeCasts_S8x512_S1x8x512 (ix3 (0 : Fin 1) b w) = _
    refine (shapeCast_ab_1ab_apply _ _ 0 b w).trans ?_
    unfold k0_pay4
    refine (rowReduce_apply _ _ _ _ b w).trans ?_
    exact Finset.sum_congr rfl fun r _ => rfl
  | ⟨2, _⟩ =>
    -- the indicator of t > 2
    show shapeCast S1x8x512 _ shapeCasts_S8x512_S1x8x512 (ix3 (0 : Fin 1) b w) = _
    refine (shapeCast_ab_1ab_apply _ _ 0 b w).trans ?_
    unfold k0_pay5
    refine (rowReduce_apply _ _ _ _ b w).trans ?_
    exact Finset.sum_congr rfl fun r _ => rfl
  | ⟨3, _⟩ =>
    -- the indicator of t > 4
    show shapeCast S1x8x512 _ shapeCasts_S8x512_S1x8x512 (ix3 (0 : Fin 1) b w) = _
    refine (shapeCast_ab_1ab_apply _ _ 0 b w).trans ?_
    unfold k0_pay6
    refine (rowReduce_apply _ _ _ _ b w).trans ?_
    exact Finset.sum_congr rfl fun r _ => rfl
  | ⟨4, _⟩ =>
    -- the indicator of p > 0
    show shapeCast S1x8x512 _ shapeCasts_S8x512_S1x8x512 (ix3 (0 : Fin 1) b w) = _
    refine (shapeCast_ab_1ab_apply _ _ 0 b w).trans ?_
    unfold k0_pay7
    refine (rowReduce_apply _ _ _ _ b w).trans ?_
    exact Finset.sum_congr rfl fun r _ => rfl
  | ⟨5, _⟩ =>
    -- the indicator of p > 2: its comparison bit is handed in, its widening, conversion and row sum are here
    show shapeCast S1x8x512 _ shapeCasts_S8x512_S1x8x512 (ix3 (0 : Fin 1) b w) = _
    refine (shapeCast_ab_1ab_apply _ _ 0 b w).trans ?_
    refine (rowReduce_apply _ _ _ _ b w).trans ?_
    exact Finset.sum_congr rfl fun r _ => rfl
  | ⟨6, _⟩ =>
    -- the indicator of p > 4, computed here from the block of `predict`
    show shapeCast S1x8x512 _ shapeCasts_S8x512_S1x8x512 (ix3 (0 : Fin 1) b w) = _
    refine (shapeCast_ab_1ab_apply _ _ 0 b w).trans ?_
    refine (rowReduce_apply _ _ _ _ b w).trans ?_
    exact Finset.sum_congr rfl fun r _ => rfl

end Cert.BinLoss

end
-- ==== Proof.KI.StatsArray.lean ====
/-
  The statistics array the region leaves, at the ideal instance: entry (k, s, w) is the sum over all 512 rows
  h of statistic k's term at (s, h, w).

  After an even point t = 2·bi the statistics buffer holds, at (k, b, w), the sum of the terms over the first
  256 rows of sample 8·bi + b (zero plus the block's partial sum); after the odd point t = 2·bi + 1 it holds
  that plus the sum over the last 256 rows. The odd points write the buffer back, so the written block is the
  restriction of the full-row sums, and the written blocks cover the array.
-/
import proofs.«145640_j80479097193024_2_alg».proof.Proof.KI.PieceValues
import proofs.«145640_j80479097193024_2_alg».proof.Proof.BlockSums
import proofs.«145640_j80479097193024_2_alg».proof.Proof.Spec

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.BinLoss

variable {F : FTy → Type} [FloatOps F]

open scoped BigOperators

variable (m : (ℓ : Loc nD τ sig) → Buf (Elt Ideal) ℓ)

/-- A sum over 512 rows is the sum over the first 256 plus the sum over the last 256. -/
theorem sum_halves {M : Type} [AddCommMonoid M] (f : Fin 512 → M) :
    ∑ h, f h = (∑ h : Fin 256, f ⟨h.val, by omega⟩) + ∑ h : Fin 256, f ⟨256 + h.val, by omega⟩ :=
  Fin.sum_univ_add (a := 256) (b := 256) (f : Fin (256 + 256) → M)

/-- After an even point: the partial sums of that point's blocks. -/
theorem acc_even (c : Dev nD) (t : Fin cfg0.N) (h0 : t.val % 2 = 0) (k : Fin 7) (b : Fin 8) (w : Fin 512) :
    (accAt m c t.val t.isLt : Vec Ideal S7x8x512 .f32) (ix3 k b w)
      = ∑ h : Fin 256, term k ((iblk m c 0 t : Vec Ideal S8x256x512 .f32) (ix3 b h w)) ((iblk m c 1 t : Vec Ideal S8x256x512 .f32) (ix3 b h w)) := by
  rw [accAt_even m c t h0, outFirst_eq]
  refine (pay_acc _ _ _ k b w).trans ?_
  rw [pay_zero, zero_add]

/-- The point before `t`. -/
def prev (t : Fin cfg0.N) : Fin cfg0.N := ⟨t.val - 1, Nat.lt_of_le_of_lt (Nat.sub_le _ _) t.isLt⟩

/-- After an odd point: the partial sums of the point before plus those of this point. -/
theorem acc_odd (c : Dev nD) (t : Fin cfg0.N) (h0 : ¬t.val % 2 = 0) (k : Fin 7) (b : Fin 8) (w : Fin 512) :
    (accAt m c t.val t.isLt : Vec Ideal S7x8x512 .f32) (ix3 k b w)
      = (∑ h : Fin 256, term k ((iblk m c 0 (prev t) : Vec Ideal S8x256x512 .f32) (ix3 b h w)) ((iblk m c 1 (prev t) : Vec Ideal S8x256x512 .f32) (ix3 b h w)))
        + ∑ h : Fin 256, term k ((iblk m c 0 t : Vec Ideal S8x256x512 .f32) (ix3 b h w)) ((iblk m c 1 t : Vec Ideal S8x256x512 .f32) (ix3 b h w)) := by
  rw [accAt_odd m c t h0, outLater_eq]
  refine (pay_acc _ _ _ k b w).trans ?_
  congr 1
  exact acc_even m c (prev t) (by show (t.val - 1) % 2 = 0; omega) k b w

/-- What an odd point writes back is its block of the full-row sums. -/
theorem flushed_eq (c : Dev nD) (t : Fin cfg0.N) (hf : (cfg0.win 2).flush t = true) :
    (dats m 0 c).flushed 2 t = ((cfg0.win 2).blk t).view.read (Elt Ideal) (stats (V m c main_arg0) (V m c main_arg1)) := by
  have hodd : t.val % 2 = 1 := (flush0_2 t).mp hf
  show (cfg0.win 2).cut (grid0.coords t) ((dats m 0 c).after 2 t) = _
  rw [after_2]
  funext j
  obtain ⟨k, b, w, rfl⟩ : ∃ (k : Fin 7) (b : Fin 8) (w : Fin 512), j = ix3 k b w := ⟨j 0, j 1, j 2, eq_ix3 j⟩
  show (accAt m c t.val t.isLt : Vec Ideal S7x8x512 .f32) (ix3 k b w)
    = stats (V m c main_arg0) (V m c main_arg1) (((cfg0.win 2).blk t).view.emb (ix3 k b w))
  rw [acc_odd m c t (by omega) k b w, emb2_apply]
  show _ = statsAt (V m c main_arg0) (V m c main_arg1) k (sampleOf t b) w
  unfold statsAt
  rw [sum_halves]
  simp only [iblk0_apply, iblk1_apply]
  have hs : sampleOf (prev t) b = sampleOf t b := Fin.ext (by show 8 * ((t.val - 1) / 2) + b.val = 8 * (t.val / 2) + b.val; omega)
  have hl0 : ∀ h : Fin 256, lineOf (prev t) h = ⟨h.val, by omega⟩ := fun h => Fin.ext (by show 256 * ((t.val - 1) % 2) + h.val = h.val; omega)
  have hl1 : ∀ h : Fin 256, lineOf t h = ⟨256 + h.val, by omega⟩ := fun h => Fin.ext (by show 256 * (t.val % 2) + h.val = 256 + h.val; omega)
  simp only [hs, hl0, hl1]

/-- The statistics array after the region. -/
theorem stats_final (c : Dev nD) : (dats m 0 c).arrAt 2 cfg0.N = stats (V m c main_arg0) (V m c main_arg1) :=
  (dats m 0 c).arrAt_eq_of_cover 2 (stats (V m c main_arg0) (V m c main_arg1)) (flushed_eq m c) covered2

end Cert.KernelIdeal.Acc

end
-- ==== Proof.SharedTail.lean ====
/-
  The part of the computation that the kernel's host code and the reference share, as two functions.

  Both programs end the same way: from the per-sample three-bin counts of `truth` and of `predict` (two
  [64,3] arrays) and the mean loss (a scalar) they form, for each of the two count arrays, the softmax over
  the bins of (counts + 1e-8) — `binProbs` —, then the Kullback–Leibler sum  Σ_bins p·(log(p+1e-8) − log(q+1e-8)),
  its mean over the 64 samples, and  1.2·loss + 2·(that mean) — `combine`. The two programs differ only in how
  they get the counts and the loss, so the certificate proves those three equal and never opens this part.
-/
import proofs.«145640_j80479097193024_2_alg».proof.Proof.Gen.ReferenceIdeal
import Idealize.ShloMosaic.PureOps.Ideal

noncomputable section

namespace Cert.BinLoss

open Cert.ReferenceIdeal Cert.ReferenceIdeal.Gen Idealize.ShloMosaic

variable {F : FTy → Type} [FloatOps F]

/-- The softmax over the three bins of (counts + 1e-8), row by row, as the host computes it: shift by the
    row maximum, exponentiate, divide by the row sum. -/
def binProbs (ct : (⟨S64x3, .f32⟩ : BufTy).Contents (Elt F)) : (⟨S64x3, .f32⟩ : BufTy).Contents (Elt F) :=
  have eps : (⟨S64x3, .f32⟩ : BufTy).Contents (Elt F) := broadcastInDim S64x3 ![] bcast_S_S64x3 (constant S_ .f32 0x322BCC77#32)
  have v42 : (⟨S64x3, .f32⟩ : BufTy).Contents (Elt F) := addf ct eps
  have v43 : (⟨S64, .f32⟩ : BufTy).Contents (Elt F) := Host.reduce FloatOps.maximumf v42 (constant S_ .f32 0xFF800000#32) reducesTo_S64x3_S64_d1 h_S_
  have v44 : (⟨S64, .f32⟩ : BufTy).Contents (Elt F) := broadcastInDim S64 ![] bcast_S_S64 (constant S_ .f32 0xFF800000#32)
  have v45 : (⟨S64, .f32⟩ : BufTy).Contents (Elt F) := maximumf v44 v43
  have v46 : (⟨S64x1, .f32⟩ : BufTy).Contents (Elt F) := broadcastInDim S64x1 ![0] bcast_S64_S64x1_0 v45
  have v47 : (⟨S64x3, .f32⟩ : BufTy).Contents (Elt F) := broadcastInDim S64x3 ![0, 1] bcast_S64x1_S64x3_0_1 v46
  have v48 : (⟨S64x3, .f32⟩ : BufTy).Contents (Elt F) := subf v42 v47
  have v49 : (⟨S64x3, .f32⟩ : BufTy).Contents (Elt F) := Host.exp v48
  have v50 : (⟨S64, .f32⟩ : BufTy).Contents (Elt F) := Host.reduceAdd v49 (constant S_ .f32 0x00000000#32) reducesTo_S64x3_S64_d1 h_S_
  have v51 : (⟨S64x1, .f32⟩ : BufTy).Contents (Elt F) := broadcastInDim S64x1 ![0] bcast_S64_S64x1_0 v50
  have v52 : (⟨S64x3, .f32⟩ : BufTy).Contents (Elt F) := broadcastInDim S64x3 ![0, 1] bcast_S64x1_S64x3_0_1 v51
  Host.divf v49 v52

/-- The result from the mean loss and the two count arrays:  1.2·loss + 2·mean_b Σ_bins p·(log(p+ε) − log(q+ε))
    with p, q the two bin-probability arrays. -/
def combine (l : (⟨S_, .f32⟩ : BufTy).Contents (Elt F)) (ct cp : (⟨S64x3, .f32⟩ : BufTy).Contents (Elt F)) : (⟨S_, .f32⟩ : BufTy).Contents (Elt F) :=
  have p : (⟨S64x3, .f32⟩ : BufTy).Contents (Elt F) := binProbs ct
  have q : (⟨S64x3, .f32⟩ : BufTy).Contents (Elt F) := binProbs cp
  have v93 : (⟨S64x3, .f32⟩ : BufTy).Contents (Elt F) := broadcastInDim S64x3 ![] bcast_S_S64x3 (constant S_ .f32 0x322BCC77#32)
  have v95 : (⟨S64x3, .f32⟩ : BufTy).Contents (Elt F) := Host.log (addf p v93)
  have v96 : (⟨S64x3, .f32⟩ : BufTy).Contents (Elt F) := broadcastInDim S64x3 ![] bcast_S_S64x3 (constant S_ .f32 0x322BCC77#32)
  have v98 : (⟨S64x3, .f32⟩ : BufTy).Contents (Elt F) := Host.log (addf q v96)
  have v100 : (⟨S64x3, .f32⟩ : BufTy).Contents (Elt F) := mulf p (subf v95 v98)
  have v101 : (⟨S64, .f32⟩ : BufTy).Contents (Elt F) := Host.reduceAdd v100 (constant S_ .f32 0x00000000#32) reducesTo_S64x3_S64_d1 h_S_
  have v102 : (⟨S_, .f32⟩ : BufTy).Contents (Elt F) := Host.reduceAdd v101 (constant S_ .f32 0x00000000#32) reducesTo_S64_S_d0 h_S_
  have v103 : (⟨S_, .f32⟩ : BufTy).Contents (Elt F) := Host.divf v102 (constant S_ .f32 0x42800000#32)
  addf (mulf (constant S_ .f32 0x3F99999A#32) l) (mulf (constant S_ .f32 0x40000000#32) v103)

end Cert.BinLoss

end
-- ==== Proof.LibCols.lean ====
/-
  Columns of a [64,3] array, read at an index.

  General lemmas over literal shapes, for any element type: a vector of 64 broadcast (dims = [0]) to a [64,1]
  column, read at (b, 0), is the vector at b; three [64,1] columns concatenated along axis 1 into a [64,3]
  array, read at (b, n), give column n at (b, 0). The shape facts are arguments, so the lemmas apply to
  whichever proofs of them a program carries.
-/
import Idealize.ShloMosaic.Lib.ValueIdx
import Idealize.ShloMosaic.Lib.Pipeline.Value

namespace Cert.BinLoss.Cols

open Idealize.ShloMosaic Idealize.ShloMosaic.ValueIdx

variable {α : Type}

/-- A vector of 64 broadcast along a new trailing unit axis, read at (b, 0), is the vector at b. -/
theorem column_apply (h : (⟨1, ![64]⟩ : Shape).BroadcastsInDim ⟨2, ![64, 1]⟩ (![0] : Fin 1 → Fin 2))
    (v : (⟨1, ![64]⟩ : Shape).Idx → α) (b : Fin 64) :
    broadcastInDim (⟨2, ![64, 1]⟩ : Shape) (![0] : Fin 1 → Fin 2) h v (ix2 b 0) = v (ix1 b) :=
  broadcastInDim_apply _ h v (ix2 b 0) (ix1 b) (fun a => match a with
    | ⟨0, _⟩ => by show b.val = if (64 : Nat) = 1 then 0 else b.val; rw [if_neg (by decide)])

/-- Three [64,1] columns side by side, read at (b, n): column n at (b, 0). -/
theorem concat3_apply (c0 c1 c2 : (⟨2, ![64, 1]⟩ : Shape).Idx → α)
    (h : Shape.Concatenates ([(⟨⟨2, ![64, 1]⟩, c0⟩ : (s : Shape) × (s.Idx → α)), ⟨⟨2, ![64, 1]⟩, c1⟩, ⟨⟨2, ![64, 1]⟩, c2⟩].map (·.1))
      ⟨2, ![64, 3]⟩ 1) (b : Fin 64) (n : Fin 3) :
    concatenate (⟨2, ![64, 3]⟩ : Shape) 1 [⟨⟨2, ![64, 1]⟩, c0⟩, ⟨⟨2, ![64, 1]⟩, c1⟩, ⟨⟨2, ![64, 1]⟩, c2⟩] h (ix2 b n)
      = match n with
        | 0 => c0 (ix2 b 0)
        | 1 => c1 (ix2 b 0)
        | 2 => c2 (ix2 b 0) := by
  have hi : ∀ b' : Fin 2, b'.cast (rfl : (2 : Nat) = 2) ≠ (1 : Fin 2) →
      ((ix2 b (0 : Fin 1) : (⟨2, ![64, 1]⟩ : Shape).Idx) b').val = ((ix2 b n : (⟨2, ![64, 3]⟩ : Shape).Idx) (b'.cast rfl)).val :=
    fun b' => match b' with
      | ⟨0, _⟩ => fun _ => rfl
      | ⟨1, _⟩ => fun hne => absurd rfl hne
  match n with
  | ⟨0, _⟩ =>
    exact concatenate_apply_piece 1 _ h (ix2 b 0) 0 (by show (0 : Nat) < 3; decide) _ c0 rfl rfl 0 rfl (ix2 b 0) hi rfl
  | ⟨1, _⟩ =>
    exact concatenate_apply_piece 1 _ h (ix2 b 1) 1 (by show (1 : Nat) < 3; decide) _ c1 rfl rfl 1 rfl (ix2 b 0) hi rfl
  | ⟨2, _⟩ =>
    exact concatenate_apply_piece 1 _ h (ix2 b 2) 2 (by show (2 : Nat) < 3; decide) _ c2 rfl rfl 2 rfl (ix2 b 0) hi rfl

end Cert.BinLoss.Cols
-- ==== Proof.HostTail.lean ====
/-
  What the kernel's host code computes from the statistics array, over the extended reals.

  After the region has written the [7,64,512] statistics array X, the host code
    * sums X over the columns (a [7,64] array of row sums),
    * takes row 0 (the loss row), totals it over the 64 samples and divides by 2^24,
    * takes rows 1, 2, 3 (the cumulative counts of `truth` above 0, 2, 4) and rows 4, 5, 6 (those of `predict`)
      and lays r0 − r1, r1 − r2, r2 side by side as the three columns of a [64,3] array of bin counts,
    * and applies to (mean loss, bins of truth, bins of predict) the chain `combine` that the reference ends with.
  The operations split at the 32nd: the first 32 compute the three inputs, the remaining 55 are `combine`, which is
  matched as one function of three variables and never opened. The three inputs are then read index by index:
  they are `lossOf X`, `cntOf X 1 2 3` and `cntOf X 4 5 6`.
-/
import proofs.«145640_j80479097193024_2_alg».proof.Proof.Gen.KernelIdeal.Launch
import proofs.«145640_j80479097193024_2_alg».proof.Proof.Spec
import proofs.«145640_j80479097193024_2_alg».proof.Proof.SharedTail
import proofs.«145640_j80479097193024_2_alg».proof.Proof.LibCols
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BinLoss

open Cert.KernelIdeal Cert.KernelIdeal.Gen Idealize.ShloMosaic Idealize.ShloMosaic.ValueIdx

variable {F : FTy → Type} [FloatOps F]

/-! ## The host operations as three inputs and the shared chain -/

/-- The statistics summed over the columns: a [7,64] array. -/
def sumCols (X : (⟨S7x64x512, .f32⟩ : BufTy).Contents (Elt F)) : (⟨S7x64, .f32⟩ : BufTy).Contents (Elt F) :=
  Host.reduceAdd X (constant S_ .f32 0x00000000#32) reducesTo_S7x64x512_S7x64_d2 h_S_

/-- Row `o` of a [7,64] array as a vector of 64: the slice [o:o+1, 0:64] reshaped. -/
def rowOf (o : Nat) (h : S7x64.Slices ![o, 0] S1x64) (R : (⟨S7x64, .f32⟩ : BufTy).Contents (Elt F)) :
    (⟨S64, .f32⟩ : BufTy).Contents (Elt F) :=
  shapeCast S64 (extractStridedSlice S1x64 ![o, 0] R h) shapeCasts_S1x64_S64

/-- A vector of 64 as a [64,1] column. -/
def colOf (v : (⟨S64, .f32⟩ : BufTy).Contents (Elt F)) : (⟨S64x1, .f32⟩ : BufTy).Contents (Elt F) :=
  broadcastInDim S64x1 ![0] bcast_S64_S64x1_0 v

/-- The three bins from three cumulative count vectors: the columns r0 − r1, r1 − r2, r2 side by side. -/
def binsK (r0 r1 r2 : (⟨S64, .f32⟩ : BufTy).Contents (Elt F)) : (⟨S64x3, .f32⟩ : BufTy).Contents (Elt F) :=
  concatenate S64x3 1 [⟨S64x1, colOf (subf r0 r1)⟩, ⟨S64x1, colOf (subf r1 r2)⟩, ⟨S64x1, colOf r2⟩]
    concatenates_S64x1_S64x1_S64x1_S64x3_d1

/-- The total of a vector of 64 divided by 2^24. -/
def lossK (r : (⟨S64, .f32⟩ : BufTy).Contents (Elt F)) : (⟨S_, .f32⟩ : BufTy).Contents (Elt F) :=
  Host.divf (Host.reduceAdd r (constant S_ .f32 0x00000000#32) reducesTo_S64_S_d0 h_S_) (constant S_ .f32 0x4B800000#32)

/-! ## The operations' results: the last 55 are `combine`, the first 32 its three inputs -/

set_option maxHeartbeats 40000000 in
/-- The operations from the 33rd on are `combine` of the buffers holding the mean loss and the two bin arrays. -/
theorem combine_chain (W : Valuation τ sig (Elt F)) :
    StableHlo.after ((hostOps1 (F := F)).drop 32) W (Proc.devRef .tc main_v69)
      = combine (F := F) (W (Proc.devRef .tc main_v29)) (W (Proc.devRef .tc main_v21)) (W (Proc.devRef .tc main_v27)) := by
  simp only [hostOps1, List.drop_succ_cons, List.drop_zero]
  after_results_simp
  rfl

set_option maxHeartbeats 4000000 in
/-- After the first 32 operations the mean-loss buffer holds row 0's total over 2^24. -/
theorem prefix_loss (W : Valuation τ sig (Elt F)) :
    StableHlo.after ((hostOps1 (F := F)).take 32) W (Proc.devRef .tc main_v29)
      = lossK (rowOf 0 slices_S7x64_S1x64_0_0 (sumCols (W (Proc.devRef .tc main_v0)))) := by
  simp only [hostOps1, List.take_succ_cons, List.take_zero]
  after_results_simp
  rfl

set_option maxHeartbeats 4000000 in
/-- … the bins of `truth` are made from rows 1, 2, 3 … -/
theorem prefix_truth (W : Valuation τ sig (Elt F)) :
    StableHlo.after ((hostOps1 (F := F)).take 32) W (Proc.devRef .tc main_v21)
      = binsK (rowOf 1 slices_S7x64_S1x64_1_0 (sumCols (W (Proc.devRef .tc main_v0))))
          (rowOf 2 slices_S7x64_S1x64_2_0 (sumCols (W (Proc.devRef .tc main_v0))))
          (rowOf 3 slices_S7x64_S1x64_3_0 (sumCols (W (Proc.devRef .tc main_v0)))) := by
  simp only [hostOps1, List.take_succ_cons, List.take_zero]
  after_results_simp
  rfl

set_option maxHeartbeats 4000000 in
/-- … and the bins of `predict` from rows 4, 5, 6. -/
theorem prefix_predict (W : Valuation τ sig (Elt F)) :
    StableHlo.after ((hostOps1 (F := F)).take 32) W (Proc.devRef .tc main_v27)
      = binsK (rowOf 4 slices_S7x64_S1x64_4_0 (sumCols (W (Proc.devRef .tc main_v0))))
          (rowOf 5 slices_S7x64_S1x64_5_0 (sumCols (W (Proc.devRef .tc main_v0))))
          (rowOf 6 slices_S7x64_S1x64_6_0 (sumCols (W (Proc.devRef .tc main_v0)))) := by
  simp only [hostOps1, List.take_succ_cons, List.take_zero]
  after_results_simp
  rfl

/-! ## The pieces read at an index, at the exact values -/

/-- The column sums at (k, b): statistic k of sample b summed over the 512 columns. -/
theorem sumCols_apply (X : St3) (k : Fin 7) (b : Fin 64) :
    sumCols (F := Ideal) X (ix2 k b) = rowSum X k b := by
  unfold sumCols rowSum
  simp only [Host.reduceAdd, Ideal.hostReduceAdd_def]
  rw [Ideal.hostReduceAdd_single reducesTo_S7x64x512_S7x64_d2 (by decide)]
  rw [constant_apply, Ideal.ofBits_zero_f32, zero_add]
  refine Finset.sum_congr rfl fun w _ => ?_
  exact congrArg X (funext fun a => Fin.ext (by match a with | ⟨0, _⟩ => rfl | ⟨1, _⟩ => rfl | ⟨2, _⟩ => rfl))

/-- Row o of a [7,64] array at b. -/
theorem rowOf_apply (o : Nat) (ho : o < 7) (h : S7x64.Slices ![o, 0] S1x64)
    (R : (⟨S7x64, .f32⟩ : BufTy).Contents (Elt F)) (b : Fin 64) :
    rowOf o h R (ix1 b) = R (ix2 ⟨o, ho⟩ b) := by
  unfold rowOf
  refine (shapeCast_apply _ shapeCasts_S1x64_S64 (ix1 b) (ix2 (0 : Fin 1) b) ?_).trans ?_
  · rw [Shape.rowMajor_val_two, Shape.rowMajor_val_one]
    show 0 * 64 + b.val = b.val
    omega
  · exact extractStridedSlice_apply _ R h (ix2 (0 : Fin 1) b) (ix2 ⟨o, ho⟩ b) (fun a => match a with
      | ⟨0, _⟩ => by show o = o + 0; rfl
      | ⟨1, _⟩ => by show b.val = 0 + b.val; omega)

/-- The three bins at (b, n): the differences of the cumulative counts. -/
theorem binsK_apply (r0 r1 r2 : (⟨S64, .f32⟩ : BufTy).Contents (Elt Ideal)) (b : Fin 64) (n : Fin 3) :
    binsK (F := Ideal) r0 r1 r2 (ix2 b n)
      = match n with
        | 0 => r0 (ix1 b) - r1 (ix1 b)
        | 1 => r1 (ix1 b) - r2 (ix1 b)
        | 2 => r2 (ix1 b) := by
  unfold binsK
  refine (Cols.concat3_apply _ _ _ concatenates_S64x1_S64x1_S64x1_S64x3_d1 b n).trans ?_
  match n with
  | ⟨0, _⟩ => exact (Cols.column_apply bcast_S64_S64x1_0 _ b).trans rfl
  | ⟨1, _⟩ => exact (Cols.column_apply bcast_S64_S64x1_0 _ b).trans rfl
  | ⟨2, _⟩ => exact Cols.column_apply bcast_S64_S64x1_0 _ b

/-- A sum over the indices of a vector of 64 is the sum over its one coordinate. -/
theorem sum_vec64 {M : Type} [AddCommMonoid M] (f : (⟨1, ![64]⟩ : Shape).Idx → M) : ∑ i, f i = ∑ b : Fin 64, f (ix1 b) :=
  (Equiv.sum_comp (⟨ix1, fun i => i 0, fun _ => rfl, fun i => (eq_ix1 i).symm⟩ : Fin 64 ≃ (⟨1, ![64]⟩ : Shape).Idx) f).symm

/-- The total of a vector of 64 over 2^24, at the one index of a scalar. -/
theorem lossK_apply (r : (⟨S64, .f32⟩ : BufTy).Contents (Elt Ideal)) (i : S_.Idx) :
    lossK (F := Ideal) r i = Ideal.div (∑ b : Fin 64, r (ix1 b)) (Ideal.ofBits .f32 0x4B800000#32) := by
  unfold lossK
  show FloatOps.hostDivf (Host.reduceAdd (F := Ideal) r (constant (F := Ideal) S_ .f32 0x00000000#32) reducesTo_S64_S_d0 h_S_ i)
      (constant (F := Ideal) S_ .f32 0x4B800000#32 i) = _
  simp only [Host.reduceAdd, Ideal.hostReduceAdd_def, Ideal.hostDivf_def]
  rw [Ideal.hostReduceAdd_total reducesTo_S64_S_d0 (fun b => b.elim0)]
  rw [constant_apply, constant_apply, Ideal.ofBits_zero_f32, zero_add]
  exact congrArg (Ideal.div · _) (sum_vec64 r)

/-! ## The three inputs of the shared chain are the specification's -/

theorem lossK_eq (X : St3) :
    lossK (F := Ideal) (rowOf 0 slices_S7x64_S1x64_0_0 (sumCols (F := Ideal) X)) = lossOf X := by
  funext i
  rw [lossK_apply]
  unfold lossOf
  refine congrArg (Ideal.div · _) (Finset.sum_congr rfl fun b _ => ?_)
  exact (rowOf_apply 0 (by decide) _ _ b).trans (sumCols_apply X 0 b)

theorem binsK_eq (X : St3) (o0 o1 o2 : Nat) (h0 : o0 < 7) (h1 : o1 < 7) (h2 : o2 < 7)
    (s0 : S7x64.Slices ![o0, 0] S1x64) (s1 : S7x64.Slices ![o1, 0] S1x64) (s2 : S7x64.Slices ![o2, 0] S1x64) :
    binsK (F := Ideal) (rowOf o0 s0 (sumCols (F := Ideal) X)) (rowOf o1 s1 (sumCols (F := Ideal) X))
        (rowOf o2 s2 (sumCols (F := Ideal) X))
      = cntOf X ⟨o0, h0⟩ ⟨o1, h1⟩ ⟨o2, h2⟩ := by
  funext i
  obtain ⟨b, n, rfl⟩ : ∃ (b : Fin 64) (n : Fin 3), i = ix2 b n := ⟨i 0, i 1, eq_ix2 i⟩
  rw [binsK_apply, rowOf_apply o0 h0, rowOf_apply o1 h1, rowOf_apply o2 h2, sumCols_apply, sumCols_apply, sumCols_apply]
  show _ = cntRow X ⟨o0, h0⟩ ⟨o1, h1⟩ ⟨o2, h2⟩ b n
  match n with
  | ⟨0, _⟩ => rfl
  | ⟨1, _⟩ => rfl
  | ⟨2, _⟩ => rfl

/-! ## The host code's result -/

/-- From a statistics array X the host code returns `combine` of the loss row's mean and the two recovered bin arrays. -/
theorem tail_value (W : Valuation τ sig (Elt Ideal)) (X : St3)
    (hX : (W (Proc.devRef .tc main_v0) : S7x64x512.Idx → EReal) = X) :
    (StableHlo.after (hostOps1 (F := Ideal)) W (Proc.devRef .tc main_v69) : S_.Idx → EReal)
      = combine (F := Ideal) (lossOf X) (cntOf X 1 2 3) (cntOf X 4 5 6) := by
  subst hX
  have split : hostOps1 (F := Ideal) = (hostOps1 (F := Ideal)).take 32 ++ (hostOps1 (F := Ideal)).drop 32 :=
    (List.take_append_drop 32 _).symm
  rw [split, StableHlo.after_append, combine_chain, prefix_loss, prefix_truth, prefix_predict]
  rw [lossK_eq, binsK_eq _ 1 2 3 (by decide) (by decide) (by decide), binsK_eq _ 4 5 6 (by decide) (by decide) (by decide)]
  rfl

end Cert.BinLoss

end
-- ==== Proof.StatsAlgebra.lean ====
/-
  What the kernel's host code makes of the kernel's statistics array is the mathematical quantity.

  * The loss: row 0 of the statistics holds, per sample b and column w, the sum over the rows h of the
    kernel's loss term; the kernel's term (a select on the comparison bit of t < 1, with the constants given
    as binary words) is the mathematical term, and summing over w then h is summing over h then w.
  * The counts: rows 1–3 (of truth) and 4–6 (of predict) hold the sums of the indicators of x > 0, x > 2,
    x > 4, each indicator a real number 0 or 1. A finite sum of real numbers embedded in the extended reals is
    the embedded real sum, so the difference of two such sums is the sum of the pointwise differences, and
    pointwise  [0 < x] − [2 < x] = [0 < x ≤ 2],  [2 < x] − [4 < x] = [2 < x ≤ 4].
-/
import proofs.«145640_j80479097193024_2_alg».proof.Proof.Spec

noncomputable section

open scoped BigOperators

namespace Cert.BinLoss

open Idealize.ShloMosaic Idealize.ShloMosaic.ValueIdx

/-! ## The constants' binary words -/

/-- The word 0x3F800000 denotes 1. -/
theorem word_one : Ideal.ofBits .f32 0x3F800000#32 = 1 := by
  simp [Ideal.ofBits, Ideal.ieee, -EReal.coe_mul]; norm_num
/-- The word 0x00000000 denotes 0. -/
theorem word_zero : Ideal.ofBits .f32 0x00000000#32 = 0 := by
  simp [Ideal.ofBits, Ideal.ieee]
/-- The word 0x40000000 denotes 2. -/
theorem word_two : Ideal.ofBits .f32 0x40000000#32 = 2 := by
  simp [Ideal.ofBits, Ideal.ieee, -EReal.coe_mul]; norm_num; norm_cast
/-- The word 0x40800000 denotes 4. -/
theorem word_four : Ideal.ofBits .f32 0x40800000#32 = 4 := by
  simp [Ideal.ofBits, Ideal.ieee, -EReal.coe_mul]; norm_num; norm_cast

/-! ## The kernel's terms are the mathematical ones -/

/-- The kernel's loss term is the mathematical loss term. -/
theorem lossSel_eq (p t : EReal) : lossSel p t = lossM p t := by
  unfold lossSel lossM
  show Scalar.select (Ideal.cmp .olt t (Ideal.ofBits .f32 0x3F800000#32))
    ((max p (Ideal.ofBits .f32 0x00000000#32) - t) * (max p (Ideal.ofBits .f32 0x00000000#32) - t)) ((p - t) * (p - t)) = _
  rw [word_one, word_zero]
  by_cases h : t < 1
  · have hc : Ideal.cmp .olt t 1 = 1#1 := by simp [Ideal.cmp, h]
    rw [hc, select_one, if_pos h]
  · have hc : Ideal.cmp .olt t 1 = 0#1 := by simp [Ideal.cmp, h]
    rw [hc, select_zero, if_neg h]

/-- The kernel's indicator (comparison bit, widened, converted) is the indicator of `thr < x`. -/
theorem above_eq (thr : BitVec 32) (x : EReal) : above thr x = ind (Ideal.ofBits .f32 thr < x) := by
  unfold above ind
  show (((BitVec.setWidth 32 (Ideal.cmp .ogt x (Ideal.ofBits .f32 thr))).toInt : ℝ) : EReal) = _
  by_cases h : Ideal.ofBits .f32 thr < x
  · have hc : Ideal.cmp .ogt x (Ideal.ofBits .f32 thr) = 1#1 := by simp [Ideal.cmp, h]
    rw [hc, if_pos h]; norm_num
  · have hc : Ideal.cmp .ogt x (Ideal.ofBits .f32 thr) = 0#1 := by simp [Ideal.cmp, h]
    rw [hc, if_neg h]; norm_num

/-- An indicator is an embedded real number. -/
theorem ind_eq_coe (c : Prop) [Decidable c] : ind c = (((if c then 1 else 0 : ℝ) : ℝ) : EReal) := by
  unfold ind; split_ifs <;> simp

/-- A finite sum of embedded reals is the embedded sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- For `a ≤ c`: the indicator of `a < x` minus that of `c < x` is the indicator of `a < x ≤ c`. -/
theorem ind_sub_ind (a c x : EReal) (hac : a ≤ c) :
    (if a < x then 1 else 0 : ℝ) - (if c < x then 1 else 0 : ℝ) = if a < x ∧ x ≤ c then 1 else 0 := by
  by_cases h1 : a < x <;> by_cases h2 : c < x
  · rw [if_pos h1, if_pos h2, if_neg (fun h => absurd h2 (not_lt.mpr h.2))]; norm_num
  · rw [if_pos h1, if_neg h2, if_pos ⟨h1, not_lt.mp h2⟩]; norm_num
  · exact absurd (lt_of_le_of_lt hac h2) h1
  · rw [if_neg h1, if_neg h2, if_neg (fun h => h1 h.1)]; norm_num

/-! ## The statistics array read at an index -/

theorem stats_ix3 (P T : In3) (k : Fin 7) (b : Fin 64) (w : Fin 512) :
    stats P T (ix3 k b w) = ∑ h : Fin 512, term k (P (ix3 b h w)) (T (ix3 b h w)) := rfl

theorem rowSum_stats (P T : In3) (k : Fin 7) (b : Fin 64) :
    rowSum (stats P T) k b = ∑ w : Fin 512, ∑ h : Fin 512, term k (P (ix3 b h w)) (T (ix3 b h w)) := rfl

/-! ## The loss -/

theorem lossOf_stats (P T : In3) : lossOf (stats P T) = lossArr P T := by
  funext _
  unfold lossOf lossArr
  congr 1
  refine Finset.sum_congr rfl fun b _ => ?_
  rw [rowSum_stats, Finset.sum_comm]
  refine Finset.sum_congr rfl fun h _ => Finset.sum_congr rfl fun w _ => ?_
  exact lossSel_eq _ _

/-! ## The counts -/

/-- The cumulative count of sample `b` of `X` above the value of the word `thr`, as a real number. -/
def cum (X : In3) (thr : BitVec 32) (b : Fin 64) : ℝ :=
  ∑ h : Fin 512, ∑ w : Fin 512, (if Ideal.ofBits .f32 thr < X (ix3 b h w) then 1 else 0 : ℝ)

/-- The kernel's column-then-row sum of its indicators is the embedded cumulative count. -/
theorem sum_above (X : In3) (thr : BitVec 32) (b : Fin 64) :
    (∑ w : Fin 512, ∑ h : Fin 512, above thr (X (ix3 b h w))) = ((cum X thr b : ℝ) : EReal) := by
  rw [Finset.sum_comm]
  unfold cum
  rw [← coe_finset_sum]
  refine Finset.sum_congr rfl fun h _ => ?_
  rw [← coe_finset_sum]
  refine Finset.sum_congr rfl fun w _ => ?_
  rw [above_eq, ind_eq_coe]

/-- The three bins from the three cumulative counts. -/
theorem bins_of_cum (X : In3) (b : Fin 64) (n : Fin 3) :
    (match n with
      | 0 => ((cum X 0x00000000#32 b : ℝ) : EReal) - ((cum X 0x40000000#32 b : ℝ) : EReal)
      | 1 => ((cum X 0x40000000#32 b : ℝ) : EReal) - ((cum X 0x40800000#32 b : ℝ) : EReal)
      | 2 => ((cum X 0x40800000#32 b : ℝ) : EReal)) = binCount X b n := by
  unfold binCount
  fin_cases n
  · show ((cum X 0x00000000#32 b : ℝ) : EReal) - ((cum X 0x40000000#32 b : ℝ) : EReal) =
      ∑ h : Fin 512, ∑ w : Fin 512, ind (0 < X (ix3 b h w) ∧ X (ix3 b h w) ≤ 2)
    rw [← EReal.coe_sub]
    unfold cum
    rw [← Finset.sum_sub_distrib, ← coe_finset_sum]
    refine Finset.sum_congr rfl fun h _ => ?_
    rw [← Finset.sum_sub_distrib, ← coe_finset_sum]
    refine Finset.sum_congr rfl fun w _ => ?_
    rw [word_zero, word_two, ind_sub_ind 0 2 _ (by exact_mod_cast (by norm_num : (0 : ℝ) ≤ 2)), ind_eq_coe]
  · show ((cum X 0x40000000#32 b : ℝ) : EReal) - ((cum X 0x40800000#32 b : ℝ) : EReal) =
      ∑ h : Fin 512, ∑ w : Fin 512, ind (2 < X (ix3 b h w) ∧ X (ix3 b h w) ≤ 4)
    rw [← EReal.coe_sub]
    unfold cum
    rw [← Finset.sum_sub_distrib, ← coe_finset_sum]
    refine Finset.sum_congr rfl fun h _ => ?_
    rw [← Finset.sum_sub_distrib, ← coe_finset_sum]
    refine Finset.sum_congr rfl fun w _ => ?_
    rw [word_two, word_four, ind_sub_ind 2 4 _ (by exact_mod_cast (by norm_num : (2 : ℝ) ≤ 4)), ind_eq_coe]
  · show ((cum X 0x40800000#32 b : ℝ) : EReal) = ∑ h : Fin 512, ∑ w : Fin 512, ind (4 < X (ix3 b h w))
    unfold cum
    rw [← coe_finset_sum]
    refine Finset.sum_congr rfl fun h _ => ?_
    rw [← coe_finset_sum]
    refine Finset.sum_congr rfl fun w _ => ?_
    rw [word_four, ind_eq_coe]

theorem cntOf_stats_truth (P T : In3) : cntOf (stats P T) 1 2 3 = countsArr T := by
  funext i
  obtain ⟨b, n, rfl⟩ : ∃ b n, i = ix2 b n := ⟨i 0, i 1, eq_ix2 i⟩
  show cntRow (stats P T) 1 2 3 b n = binCount T b n
  rw [← bins_of_cum T b n]
  unfold cntRow
  have h1 : rowSum (stats P T) 1 b = ((cum T 0x00000000#32 b : ℝ) : EReal) := sum_above T _ b
  have h2 : rowSum (stats P T) 2 b = ((cum T 0x40000000#32 b : ℝ) : EReal) := sum_above T _ b
  have h3 : rowSum (stats P T) 3 b = ((cum T 0x40800000#32 b : ℝ) : EReal) := sum_above T _ b
  rw [h1, h2, h3]
  fin_cases n <;> rfl

theorem cntOf_stats_predict (P T : In3) : cntOf (stats P T) 4 5 6 = countsArr P := by
  funext i
  obtain ⟨b, n, rfl⟩ : ∃ b n, i = ix2 b n := ⟨i 0, i 1, eq_ix2 i⟩
  show cntRow (stats P T) 4 5 6 b n = binCount P b n
  rw [← bins_of_cum P b n]
  unfold cntRow
  have h1 : rowSum (stats P T) 4 b = ((cum P 0x00000000#32 b : ℝ) : EReal) := sum_above P _ b
  have h2 : rowSum (stats P T) 5 b = ((cum P 0x40000000#32 b : ℝ) : EReal) := sum_above P _ b
  have h3 : rowSum (stats P T) 6 b = ((cum P 0x40800000#32 b : ℝ) : EReal) := sum_above P _ b
  rw [h1, h2, h3]
  fin_cases n <;> rfl

end Cert.BinLoss

end
-- ==== Proof.KI.KernelValue.lean ====
/-
  The idealized kernel's run with its result named: every weakly fair execution of @main terminates, the two
  argument arrays end as launched, and the result buffer ends at the shared chain of the mean loss and the
  two bin-count arrays of the arguments.

  The region leaves the statistics array of full-row sums; the later host operations turn a statistics array
  into the shared chain of its column totals; and for the full-row sums those totals are the mean loss and
  the bin counts.
-/
import proofs.«145640_j80479097193024_2_alg».proof.Proof.KI.StatsArray
import proofs.«145640_j80479097193024_2_alg».proof.Proof.HostTail
import proofs.«145640_j80479097193024_2_alg».proof.Proof.StatsAlgebra

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.BinLoss

variable {F : FTy → Type} [FloatOps F]

variable (m : (ℓ : Loc nD τ sig) → Buf (Elt Ideal) ℓ) (ρ : Dev nD → PrngReg)

/-- The result buffer is unscoped and is none of the staged arrays. -/
theorem result_bypasses : main_v69 ∈ Pipeline.restRefs sig spec0 :=
  Pipeline.mem_restRefs_of main_v69 rfl (by decide)

/-- What the later host operations leave in the result buffer. -/
theorem result_value (c : Dev nD) :
    Pipeline.afterTail₀ cfgs (dats m) 0 (V0 m) [hostOps1] c main_v69
      = combine (F := Ideal) (lossArr (m ((c.tc : Thread nD τ).loc main_arg0)) (m ((c.tc : Thread nD τ).loc main_arg1)))
          (countsArr (m ((c.tc : Thread nD τ).loc main_arg1))) (countsArr (m ((c.tc : Thread nD τ).loc main_arg0))) := by
  unfold Pipeline.afterTail₀
  show StableHlo.after hostOps1 _ (Proc.devRef .tc main_v69) = _
  refine (tail_value _ (stats (V m c main_arg0) (V m c main_arg1)) ?_).trans ?_
  · exact (Pipeline.withArrays_arr spec0 launch0.win.arr_inj c _ _ 2).trans (stats_final m c)
  · rw [lossOf_stats, cntOf_stats_truth, cntOf_stats_predict]
    rfl

/-- The run, read. -/
theorem kernel_run : θ_run (defs (F := Ideal)) (onTc (τ := τ) (main (F := Ideal))) ⟨m, fun _ => 0, ρ⟩ (fun r => ∀ c : Dev nD,
      r.2.mem ((c.tc : Thread nD τ).loc main_v69)
        = combine (F := Ideal) (lossArr (m ((c.tc : Thread nD τ).loc main_arg0)) (m ((c.tc : Thread nD τ).loc main_arg1)))
            (countsArr (m ((c.tc : Thread nD τ).loc main_arg1))) (countsArr (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v69 result_bypasses).trans (result_value m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Acc

end
-- ==== Proof.RefLoss.lean ====
/-
  The reference program's result as the shared chain of its three inputs, and its mean loss as the
  mathematical quantity, over the extended reals.

  * `result_chain`: the reference's result is `combine` of its mean loss and its two bin-count arrays —
    its operations after the counts are, one by one, the operations `binProbs` and `combine` are made of.
  * `loss_value`: the reference's mean loss is `lossArr`. Its element term is
      (p − t)²·(1 − m) + m·(max(p,0) − t)²   with m the indicator of t < 1 as 0 or 1,
    which is (max(p,0) − t)² where t < 1 (the first product is x·0 = 0, for every extended real x, infinite
    ones included) and (p − t)² elsewhere (the second product is 0·x = 0); the sum over all indices of
    [64,512,512] is the triple sum over the coordinates.
-/
import proofs.«145640_j80479097193024_2_alg».proof.Proof.Gen.ReferenceIdeal.Read
import proofs.«145640_j80479097193024_2_alg».proof.Proof.Spec
import proofs.«145640_j80479097193024_2_alg».proof.Proof.SharedTail
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.BinLoss
open Idealize.ShloMosaic Idealize.ShloMosaic.ValueIdx

/-! ## The result is the shared chain -/

/-- The reference's bin probabilities of `truth` are `binProbs` of its counts of `truth`. -/
theorem probs_truth (x1 : (⟨S64x512x512, .f32⟩ : BufTy).Contents (Elt Ideal)) :
    val_main_v53 (F := Ideal) x1 = binProbs (F := Ideal) (val_main_v40 (F := Ideal) x1) := rfl

/-- The reference's bin probabilities of `predict` are `binProbs` of its counts of `predict`. -/
theorem probs_predict (x0 : (⟨S64x512x512, .f32⟩ : BufTy).Contents (Elt Ideal)) :
    val_main_v92 (F := Ideal) x0 = binProbs (F := Ideal) (val_main_v79 (F := Ideal) x0) := rfl

theorem result_chain (x0 x1 : (⟨S64x512x512, .f32⟩ : BufTy).Contents (Elt Ideal)) :
    val_main_v106 (F := Ideal) x0 x1
      = combine (F := Ideal) (val_main_v14 (F := Ideal) x0 x1) (val_main_v40 (F := Ideal) x1) (val_main_v79 (F := Ideal) x0) := rfl

/-! ## The mean loss -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The word 0x3F800000 denotes 1. -/
theorem ofBits_one_f32 : Ideal.ofBits .f32 0x3F800000#32 = 1 := by
  simp [Ideal.ofBits, Ideal.ieee, -EReal.coe_mul]; norm_num

/-- The element term: with m ∈ {0,1} the indicator of t < 1,
    (p − t)²·(1 − m) + m·(max(p,0) − t)² is the loss term of (p, t). -/
theorem term_eq (p t : EReal) :
    (p - t) * (p - t) * (1 - (((Ideal.cmp .olt t 1).toNat : ℝ) : EReal))
        + (((Ideal.cmp .olt t 1).toNat : ℝ) : EReal) * ((max p 0 - t) * (max p 0 - t))
      = lossM p t := by
  unfold lossM
  by_cases h : t < 1
  · have hb : Ideal.cmp .olt t 1 = 1#1 := by simp [Ideal.cmp, h]
    rw [hb, if_pos h]
    have h1 : (((1#1 : BitVec 1).toNat : ℝ) : EReal) = 1 := by simp
    rw [h1]
    have h0 : (1 : EReal) - 1 = 0 := by
      rw [← EReal.coe_one, ← EReal.coe_sub, sub_self, EReal.coe_zero]
    rw [h0, mul_zero, zero_add, one_mul]
  · have hb : Ideal.cmp .olt t 1 = 0#1 := by simp [Ideal.cmp, h]
    rw [hb, if_neg h]
    have h1 : (((0#1 : BitVec 1).toNat : ℝ) : EReal) = 0 := by simp
    rw [h1, sub_zero, mul_one, zero_mul, add_zero]

/-- The reference's summand at an index is the loss term of the two inputs there. -/
theorem summand_eq (x0 x1 : (⟨S64x512x512, .f32⟩ : BufTy).Contents (Elt Ideal)) (j : S64x512x512.Idx) :
    val_main_v12 (F := Ideal) x0 x1 j = lossM (x0 j) (x1 j) := by
  rw [val_main_v12_apply, val_main_v7_apply, val_main_v11_apply, val_main_v4_apply, val_main_v3_apply,
    val_main_v6_apply, val_main_v5_apply, val_main_cst_0_apply, val_main_v2_apply, val_main_v1_apply,
    val_main_v0_apply, val_main_cst_apply, val_main_v10_apply, val_main_v9_apply, val_main_v8_apply,
    val_main_call0_v0_apply, val_main_call0_cst_apply]
  rw [Ideal.ofBits_def, Ideal.ofBits_def, ofBits_one_f32, Ideal.ofBits_zero_f32]
  exact term_eq (x0 j) (x1 j)

theorem loss_value (x0 x1 : (⟨S64x512x512, .f32⟩ : BufTy).Contents (Elt Ideal)) :
    (val_main_v14 (F := Ideal) x0 x1 : S_.Idx → EReal) = lossArr x0 x1 := by
  funext i
  rw [val_main_v14_apply, val_main_v13_apply, val_main_cst_1_apply, val_main_cst_2_apply]
  rw [Ideal.hostDivf_def, Ideal.ofBits_def, Ideal.ofBits_def, Ideal.ofBits_zero_f32, zero_add]
  rw [sum_idx3]
  unfold lossArr
  refine congrArg (fun s => Ideal.div s (Ideal.ofBits .f32 0x4B800000#32)) ?_
  refine Finset.sum_congr rfl fun b _ => Finset.sum_congr rfl fun h _ => Finset.sum_congr rfl fun w _ => ?_
  exact summand_eq x0 x1 (ix3 b h w)

end Cert.ReferenceIdeal.RefValue

end
-- ==== Proof.RefCounts.lean ====
/-
  The reference program's two [64,3] arrays of bin counts are the mathematical counts.

  For an input array X over [64,512,512] the reference flattens each sample to a row of 262144 = 512·512 elements
  (row-major: position k is row k / 512, column k % 512), forms for each bin the mask of the elements in it — the
  bit of  x > lo  and the bit of  x ≤ hi,  and-ed, converted to a float: the indicator of  lo < x ≤ hi  —, sums each
  mask along the row from 0, and joins the three vectors of sums as the three columns of a [64,3] array. The bins
  are (0,2], (2,4] and (4,+∞]; the last upper bound is +∞, so its second condition always holds. Over the extended
  reals the sums are exact, and the sum along the flattened row is the double sum over rows and columns: entry
  (b, n) is the number of elements of X[b] in bin n, which is `binCount X b n`.

  `counts_truth` and `counts_predict` state this for the two inputs; the generated module names every operation's
  value (`val_main_v15` … `val_main_v40` for `truth`, `val_main_v54` … `val_main_v79` for `predict`), and the
  two proofs read the same operations under those two sets of names.
-/
import proofs.«145640_j80479097193024_2_alg».proof.Proof.Gen.ReferenceIdeal.Read
import proofs.«145640_j80479097193024_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefCounts

open Cert.ReferenceIdeal Cert.ReferenceIdeal.Gen Cert.ReferenceIdeal.Read Cert.BinLoss Idealize.ShloMosaic Idealize.ShloMosaic.ValueIdx

/-! ## The constants' values

The thresholds are spelt as binary words; on the extended reals they denote 2, 4 and +∞. -/

/-- The word of `2.0` denotes 2. -/
theorem ofBits_two : Ideal.ofBits .f32 0x40000000#32 = 2 := by
  simp [Ideal.ofBits, Ideal.ieee, -EReal.coe_mul]; norm_num; rfl

/-- The word of `4.0` denotes 4. -/
theorem ofBits_four : Ideal.ofBits .f32 0x40800000#32 = 4 := by
  simp [Ideal.ofBits, Ideal.ieee, -EReal.coe_mul]; norm_num; rfl

/-- The word of `+inf` denotes ⊤. -/
theorem ofBits_inf : Ideal.ofBits .f32 0x7F800000#32 = ⊤ := by
  simp [Ideal.ofBits, Ideal.ieee]

/-! ## One element: two comparison bits, their conjunction, converted to a float

The bit of `x > lo` and the bit of `x ≤ hi`, and-ed and read as an unsigned integer, is the indicator of
`lo < x ∧ x ≤ hi`. -/

theorem conv_and_cmp (x lo hi : EReal) :
    (FloatOps.uitofp (F := Ideal) .f32 (IntOp.andi (FloatOps.cmpf (F := Ideal) (φ := .f32) .ogt x lo)
      (FloatOps.cmpf (F := Ideal) (φ := .f32) .ole x hi)) : EReal) = ind (lo < x ∧ x ≤ hi) := by
  show (((IntOp.andi (Ideal.cmp .ogt x lo) (Ideal.cmp .ole x hi)).toNat : ℝ) : EReal) = _
  unfold IntOp.andi Ideal.cmp ind
  by_cases h1 : lo < x <;> by_cases h2 : x ≤ hi <;> simp [h1, h2]

/-- With the upper bound +∞ the second condition is vacuous. -/
theorem ind_and_le_top (lo x : EReal) : ind (lo < x ∧ x ≤ ⊤) = ind (lo < x) := by
  unfold ind
  by_cases h1 : lo < x <;> simp [h1]

/-! ## The flattened axis

A sum over `Fin (a·b)` of a function of the quotient and remainder by `b` is the double sum. -/

theorem sum_divMod {M : Type*} [AddCommMonoid M] (a b : Nat) (f : Fin a → Fin b → M) :
    ∑ k : Fin (a * b), f (finProdFinEquiv.symm k).1 (finProdFinEquiv.symm k).2 = ∑ h : Fin a, ∑ w : Fin b, f h w := by
  rw [← Fintype.sum_prod_type']
  exact Fintype.sum_equiv finProdFinEquiv.symm _ _ (fun k => rfl)

/-- The row of 512·512 elements: flat position `k` is row `k / 512`, column `k % 512`. -/
theorem sum_flat {M : Type*} [AddCommMonoid M] (f : Fin 512 → Fin 512 → M) :
    ∑ k : Fin 262144, f ⟨k.val / 512, by have := k.isLt; omega⟩ ⟨k.val % 512, by omega⟩
      = ∑ h : Fin 512, ∑ w : Fin 512, f h w :=
  sum_divMod 512 512 f

/-- The row-major reshape [64,512,512] → [64,262144] read backwards: position `(b, k)` is `(b, k / 512, k % 512)`.
    Stated for any rank-3 index whose coordinates are the three row-major quotients. -/
theorem reshape_idx (b : Fin 64) (k : Fin 262144) (J : S64x512x512.Idx)
    (h0 : (J 0).val = (b.val * 262144 + k.val) / 262144) (h1 : (J 1).val = (b.val * 262144 + k.val) / 512 % 512)
    (h2 : (J 2).val = (b.val * 262144 + k.val) % 512) :
    J = ix3 b ⟨k.val / 512, by have := k.isLt; omega⟩ ⟨k.val % 512, by omega⟩ := by
  have hk := k.isLt
  have hb := b.isLt
  funext a
  match a with
  | ⟨0, _⟩ => exact Fin.ext (by show (J 0).val = b.val; omega)
  | ⟨1, _⟩ => exact Fin.ext (by show (J 1).val = k.val / 512; omega)
  | ⟨2, _⟩ => exact Fin.ext (by show (J 2).val = k.val % 512; omega)

/-! ## Three columns joined along axis 1

The [64,3] array made of three [64,1] columns, read at `(b, n)`, is column `n` at `(b, 0)`. -/

section Concat
variable {α : Type} (c0 c1 c2 : S64x1.Idx → α)
  (h : Shape.Concatenates ([(⟨S64x1, c0⟩ : (s : Shape) × (s.Idx → α)), ⟨S64x1, c1⟩, ⟨S64x1, c2⟩].map (·.1)) S64x3 1)
  (b : Fin 64)

theorem concat3_0 : concatenate S64x3 1 [⟨S64x1, c0⟩, ⟨S64x1, c1⟩, ⟨S64x1, c2⟩] h (ix2 b (0 : Fin 3)) = c0 (ix2 b (0 : Fin 1)) :=
  concatenate_apply_piece 1 _ h (ix2 b (0 : Fin 3)) 0 (by show (0 : Nat) < 3; omega) S64x1 c0 rfl rfl 0 rfl (ix2 b (0 : Fin 1))
    (fun d hd => match d, hd with
      | ⟨0, _⟩, _ => rfl
      | ⟨1, _⟩, hd => absurd rfl hd) rfl

theorem concat3_1 : concatenate S64x3 1 [⟨S64x1, c0⟩, ⟨S64x1, c1⟩, ⟨S64x1, c2⟩] h (ix2 b (1 : Fin 3)) = c1 (ix2 b (0 : Fin 1)) :=
  concatenate_apply_piece 1 _ h (ix2 b (1 : Fin 3)) 1 (by show (1 : Nat) < 3; omega) S64x1 c1 rfl rfl 1 rfl (ix2 b (0 : Fin 1))
    (fun d hd => match d, hd with
      | ⟨0, _⟩, _ => rfl
      | ⟨1, _⟩, hd => absurd rfl hd) rfl

theorem concat3_2 : concatenate S64x3 1 [⟨S64x1, c0⟩, ⟨S64x1, c1⟩, ⟨S64x1, c2⟩] h (ix2 b (2 : Fin 3)) = c2 (ix2 b (0 : Fin 1)) :=
  concatenate_apply_piece 1 _ h (ix2 b (2 : Fin 3)) 2 (by show (2 : Nat) < 3; omega) S64x1 c2 rfl rfl 2 rfl (ix2 b (0 : Fin 1))
    (fun d hd => match d, hd with
      | ⟨0, _⟩, _ => rfl
      | ⟨1, _⟩, hd => absurd rfl hd) rfl

end Concat

/-! ## The counts of `truth` -/

section Truth
variable (x1 : (⟨S64x512x512, .f32⟩ : BufTy).Contents (Elt Ideal))

/-- Bin (0,2]: one element of the converted mask. -/
theorem truth_elem0 (j : S64x262144.Idx) :
    val_main_v21 (F := Ideal) x1 j = ind (0 < x1 (idx_main_v15 j) ∧ x1 (idx_main_v15 j) ≤ 2) := by
  rw [val_main_v21_apply, val_main_v20_apply, val_main_v17_apply, val_main_v19_apply, val_main_v15_apply,
    val_main_v16_apply, val_main_v18_apply, val_main_cst_3_apply, val_main_cst_4_apply,
    Ideal.ofBits_def, Ideal.ofBits_def, Ideal.ofBits_zero_f32, ofBits_two]
  exact conv_and_cmp _ _ _

/-- Bin (2,4]: one element of the converted mask. -/
theorem truth_elem1 (j : S64x262144.Idx) :
    val_main_v28 (F := Ideal) x1 j = ind (2 < x1 (idx_main_v15 j) ∧ x1 (idx_main_v15 j) ≤ 4) := by
  rw [val_main_v28_apply, val_main_v27_apply, val_main_v24_apply, val_main_v26_apply, val_main_v15_apply,
    val_main_v23_apply, val_main_v25_apply, val_main_cst_6_apply, val_main_cst_7_apply,
    Ideal.ofBits_def, Ideal.ofBits_def, ofBits_two, ofBits_four]
  exact conv_and_cmp _ _ _

/-- Bin (4,∞): one element of the converted mask. -/
theorem truth_elem2 (j : S64x262144.Idx) :
    val_main_v35 (F := Ideal) x1 j = ind (4 < x1 (idx_main_v15 j)) := by
  rw [val_main_v35_apply, val_main_v34_apply, val_main_v31_apply, val_main_v33_apply, val_main_v15_apply,
    val_main_v30_apply, val_main_v32_apply, val_main_cst_9_apply, val_main_cst_10_apply,
    Ideal.ofBits_def, Ideal.ofBits_def, ofBits_four, ofBits_inf]
  exact (conv_and_cmp _ _ _).trans (ind_and_le_top _ _)

/-- Column 0 at `(b, 0)`: the number of elements of sample `b` in (0,2]. -/
theorem truth_bin0 (b : Fin 64) : val_main_v37 (F := Ideal) x1 (ix2 b (0 : Fin 1)) = binCount x1 b 0 := by
  rw [val_main_v37_apply, val_main_v22_apply, val_main_cst_5_apply, Ideal.ofBits_def, Ideal.ofBits_zero_f32, zero_add]
  refine (Finset.sum_congr rfl fun k _ => ?_).trans
    (sum_flat fun h w => ind (0 < x1 (ix3 b h w) ∧ x1 (ix3 b h w) ≤ 2))
  rw [truth_elem0, reshape_idx b k (idx_main_v15 (idx_main_v22 (idx_main_v37 (ix2 b (0 : Fin 1))) k)) rfl rfl rfl]

/-- Column 1 at `(b, 0)`: the number of elements of sample `b` in (2,4]. -/
theorem truth_bin1 (b : Fin 64) : val_main_v38 (F := Ideal) x1 (ix2 b (0 : Fin 1)) = binCount x1 b 1 := by
  rw [val_main_v38_apply, val_main_v29_apply, val_main_cst_8_apply, Ideal.ofBits_def, Ideal.ofBits_zero_f32, zero_add]
  refine (Finset.sum_congr rfl fun k _ => ?_).trans
    (sum_flat fun h w => ind (2 < x1 (ix3 b h w) ∧ x1 (ix3 b h w) ≤ 4))
  rw [truth_elem1, reshape_idx b k (idx_main_v15 (idx_main_v29 (idx_main_v38 (ix2 b (0 : Fin 1))) k)) rfl rfl rfl]

/-- Column 2 at `(b, 0)`: the number of elements of sample `b` above 4. -/
theorem truth_bin2 (b : Fin 64) : val_main_v39 (F := Ideal) x1 (ix2 b (0 : Fin 1)) = binCount x1 b 2 := by
  rw [val_main_v39_apply, val_main_v36_apply, val_main_cst_11_apply, Ideal.ofBits_def, Ideal.ofBits_zero_f32, zero_add]
  refine (Finset.sum_congr rfl fun k _ => ?_).trans
    (sum_flat fun h w => ind (4 < x1 (ix3 b h w)))
  rw [truth_elem2, reshape_idx b k (idx_main_v15 (idx_main_v36 (idx_main_v39 (ix2 b (0 : Fin 1))) k)) rfl rfl rfl]

/-- The reference's [64,3] array of `truth`'s bin counts is the mathematical one. -/
theorem counts_truth :
    (val_main_v40 (F := Ideal) x1 : S64x3.Idx → EReal) = countsArr x1 := by
  funext i
  obtain ⟨b, n, rfl⟩ : ∃ (b : Fin 64) (n : Fin 3), i = ix2 b n := ⟨i 0, i 1, eq_ix2 i⟩
  show val_main_v40 (F := Ideal) x1 (ix2 b n) = binCount x1 b n
  unfold val_main_v40
  match n with
  | ⟨0, _⟩ => exact (concat3_0 _ _ _ _ b).trans (truth_bin0 x1 b)
  | ⟨1, _⟩ => exact (concat3_1 _ _ _ _ b).trans (truth_bin1 x1 b)
  | ⟨2, _⟩ => exact (concat3_2 _ _ _ _ b).trans (truth_bin2 x1 b)

end Truth

/-! ## The counts of `predict` -/

section Predict
variable (x0 : (⟨S64x512x512, .f32⟩ : BufTy).Contents (Elt Ideal))

/-- Bin (0,2]: one element of the converted mask. -/
theorem predict_elem0 (j : S64x262144.Idx) :
    val_main_v60 (F := Ideal) x0 j = ind (0 < x0 (idx_main_v54 j) ∧ x0 (idx_main_v54 j) ≤ 2) := by
  rw [val_main_v60_apply, val_main_v59_apply, val_main_v56_apply, val_main_v58_apply, val_main_v54_apply,
    val_main_v55_apply, val_main_v57_apply, val_main_cst_16_apply, val_main_cst_17_apply,
    Ideal.ofBits_def, Ideal.ofBits_def, Ideal.ofBits_zero_f32, ofBits_two]
  exact conv_and_cmp _ _ _

/-- Bin (2,4]: one element of the converted mask. -/
theorem predict_elem1 (j : S64x262144.Idx) :
    val_main_v67 (F := Ideal) x0 j = ind (2 < x0 (idx_main_v54 j) ∧ x0 (idx_main_v54 j) ≤ 4) := by
  rw [val_main_v67_apply, val_main_v66_apply, val_main_v63_apply, val_main_v65_apply, val_main_v54_apply,
    val_main_v62_apply, val_main_v64_apply, val_main_cst_19_apply, val_main_cst_20_apply,
    Ideal.ofBits_def, Ideal.ofBits_def, ofBits_two, ofBits_four]
  exact conv_and_cmp _ _ _

/-- Bin (4,∞): one element of the converted mask. -/
theorem predict_elem2 (j : S64x262144.Idx) :
    val_main_v74 (F := Ideal) x0 j = ind (4 < x0 (idx_main_v54 j)) := by
  rw [val_main_v74_apply, val_main_v73_apply, val_main_v70_apply, val_main_v72_apply, val_main_v54_apply,
    val_main_v69_apply, val_main_v71_apply, val_main_cst_22_apply, val_main_cst_23_apply,
    Ideal.ofBits_def, Ideal.ofBits_def, ofBits_four, ofBits_inf]
  exact (conv_and_cmp _ _ _).trans (ind_and_le_top _ _)

/-- Column 0 at `(b, 0)`: the number of elements of sample `b` in (0,2]. -/
theorem predict_bin0 (b : Fin 64) : val_main_v76 (F := Ideal) x0 (ix2 b (0 : Fin 1)) = binCount x0 b 0 := by
  rw [val_main_v76_apply, val_main_v61_apply, val_main_cst_18_apply, Ideal.ofBits_def, Ideal.ofBits_zero_f32, zero_add]
  refine (Finset.sum_congr rfl fun k _ => ?_).trans
    (sum_flat fun h w => ind (0 < x0 (ix3 b h w) ∧ x0 (ix3 b h w) ≤ 2))
  rw [predict_elem0, reshape_idx b k (idx_main_v54 (idx_main_v61 (idx_main_v76 (ix2 b (0 : Fin 1))) k)) rfl rfl rfl]

/-- Column 1 at `(b, 0)`: the number of elements of sample `b` in (2,4]. -/
theorem predict_bin1 (b : Fin 64) : val_main_v77 (F := Ideal) x0 (ix2 b (0 : Fin 1)) = binCount x0 b 1 := by
  rw [val_main_v77_apply, val_main_v68_apply, val_main_cst_21_apply, Ideal.ofBits_def, Ideal.ofBits_zero_f32, zero_add]
  refine (Finset.sum_congr rfl fun k _ => ?_).trans
    (sum_flat fun h w => ind (2 < x0 (ix3 b h w) ∧ x0 (ix3 b h w) ≤ 4))
  rw [predict_elem1, reshape_idx b k (idx_main_v54 (idx_main_v68 (idx_main_v77 (ix2 b (0 : Fin 1))) k)) rfl rfl rfl]

/-- Column 2 at `(b, 0)`: the number of elements of sample `b` above 4. -/
theorem predict_bin2 (b : Fin 64) : val_main_v78 (F := Ideal) x0 (ix2 b (0 : Fin 1)) = binCount x0 b 2 := by
  rw [val_main_v78_apply, val_main_v75_apply, val_main_cst_24_apply, Ideal.ofBits_def, Ideal.ofBits_zero_f32, zero_add]
  refine (Finset.sum_congr rfl fun k _ => ?_).trans
    (sum_flat fun h w => ind (4 < x0 (ix3 b h w)))
  rw [predict_elem2, reshape_idx b k (idx_main_v54 (idx_main_v75 (idx_main_v78 (ix2 b (0 : Fin 1))) k)) rfl rfl rfl]

/-- The reference's [64,3] array of `predict`'s bin counts is the mathematical one. -/
theorem counts_predict :
    (val_main_v79 (F := Ideal) x0 : S64x3.Idx → EReal) = countsArr x0 := by
  funext i
  obtain ⟨b, n, rfl⟩ : ∃ (b : Fin 64) (n : Fin 3), i = ix2 b n := ⟨i 0, i 1, eq_ix2 i⟩
  show val_main_v79 (F := Ideal) x0 (ix2 b n) = binCount x0 b n
  unfold val_main_v79
  match n with
  | ⟨0, _⟩ => exact (concat3_0 _ _ _ _ b).trans (predict_bin0 x0 b)
  | ⟨1, _⟩ => exact (concat3_1 _ _ _ _ b).trans (predict_bin1 x0 b)
  | ⟨2, _⟩ => exact (concat3_2 _ _ _ _ b).trans (predict_bin2 x0 b)

end Predict

end Cert.ReferenceIdeal.RefCounts

end
-- ==== Proof.RefRun.lean ====
/-
  The reference program's run, in the shared mathematical terms.

  * `ref_value`: the reference's result is `combine` of the mean loss `lossArr` of (predict, truth) and the bin
    counts `countsArr` of truth and of predict — the result is the shared chain of its mean loss and its two count
    arrays (`result_chain`), the mean loss is `lossArr` (`loss_value`), and the two count arrays are `countsArr`
    (`counts_truth`, `counts_predict`).
  * `ref_run`: every weakly fair execution of the reference from a memory `m` with zero counters terminates with
    its result at that value of the two argument arrays of `m`, and the arguments unchanged — the generated run
    leaves the result at the operations' composed term, which is `val_main_v106` of the two argument arrays.
-/
import proofs.«145640_j80479097193024_2_alg».proof.Proof.RefLoss
import proofs.«145640_j80479097193024_2_alg».proof.Proof.RefCounts

noncomputable section

open Idealize.ShloMosaic Idealize.ShloMosaic.TcCoe Idealize.SL.Sem

namespace Cert.ReferenceIdeal.RefValue

open Cert.ReferenceIdeal Cert.ReferenceIdeal.Gen Cert.ReferenceIdeal.Read Cert.BinLoss

theorem ref_value (x0 x1 : (⟨S64x512x512, .f32⟩ : BufTy).Contents (Elt Ideal)) :
    val_main_v106 (F := Ideal) x0 x1 = combine (F := Ideal) (lossArr x0 x1) (countsArr x1) (countsArr x0) := by
  rw [result_chain, loss_value, Cert.ReferenceIdeal.RefCounts.counts_truth, Cert.ReferenceIdeal.RefCounts.counts_predict]

theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v106) = combine (F := Ideal) (lossArr (m ((c.tc : Thread nD τ).loc main_arg0)) (m ((c.tc : Thread nD τ).loc main_arg1))) (countsArr (m ((c.tc : Thread nD τ).loc main_arg1))) (countsArr (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono
    (fun _ h c => ⟨(h c).1.trans ((val_main_v106_eq m c).trans (ref_value _ _)), (h c).2⟩)
    (Cert.ReferenceIdeal.Value.run (F := Ideal) m ρ)

end Cert.ReferenceIdeal.RefValue

end
-- ==== Proof.lean ====
/-
  The certificate's claim, assembled.

  Both programs take two arrays P (`predict`) and T (`truth`) over [64,512,512] and return one scalar,
      1.2 · L + 2 · mean_b Σ_bins p_b · (log(p_b + ε) − log(q_b + ε)),
  where L is the mean over all 2^24 elements of the loss term — (max(P,0) − T)² where T < 1 and (P − T)² elsewhere —
  and p_b, q_b are the softmax over the three bins (0,2], (2,4], (4,∞) of (count + ε) of sample b of T and of P
  (Spec: `lossArr`, `countsArr`; SharedTail: `binProbs`, `combine`).

  How the proof is cut.
  * Frames: the kernel, at the bit-exact and at the ideal instance, runs (terminates, nothing faulting) with its two
    argument arrays unchanged — the frame run of its one gridded region (KB/Frame, KI/Frame); the reference's frame
    is its run below with the result dropped.
  * The kernel's result at the ideal instance (KI/KernelValue): its region leaves, per sample and column, seven sums
    over the rows — of the loss term and of the six indicators of T, P above 0, 2, 4 —; its host part sums them over the
    columns, takes the mean loss from the first and the bin counts as differences of the cumulative counts, and ends
    with the shared chain `combine`.
  * The reference's result (RefLoss, RefCounts, RefRun): its generated run leaves the composed term of its operations,
    whose mean loss is `lossArr`, whose two count arrays are `countsArr`, and whose remaining operations are the
    shared chain.
  * So from memories that agree on the arguments both results are `combine (lossArr P T) (countsArr T) (countsArr P)`:
    equal as extended reals, element by element.
  The idealization rewrote no operation, so `preserves` is trivial; the precondition (finite inputs) is never used.
-/
import proofs.«145640_j80479097193024_2_alg».proof.Defs
import proofs.«145640_j80479097193024_2_alg».proof.Proof.Gen.Kernel
import proofs.«145640_j80479097193024_2_alg».proof.Proof.Gen.Kernel.Skeleton
import proofs.«145640_j80479097193024_2_alg».proof.Proof.Gen.Kernel.Launch
import proofs.«145640_j80479097193024_2_alg».proof.Proof.Gen.Kernel.Points
import proofs.«145640_j80479097193024_2_alg».proof.Proof.Gen.KernelIdeal
import proofs.«145640_j80479097193024_2_alg».proof.Proof.Gen.KernelIdeal.Skeleton
import proofs.«145640_j80479097193024_2_alg».proof.Proof.Gen.KernelIdeal.Launch
import proofs.«145640_j80479097193024_2_alg».proof.Proof.Gen.KernelIdeal.Points
import proofs.«145640_j80479097193024_2_alg».proof.Proof.Gen.ReferenceIdeal
import proofs.«145640_j80479097193024_2_alg».proof.Proof.Gen.Pre_finite_inputs
import proofs.«145640_j80479097193024_2_alg».proof.Proof.KB.Frame
import proofs.«145640_j80479097193024_2_alg».proof.Proof.KI.KernelValue
import proofs.«145640_j80479097193024_2_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs with its arguments unchanged. -/
theorem frame_kernel : Cert.frame_Kernel := fun m ρ _ => Cert.Kernel.Acc.frame (F := Bits) m ρ

/-- The kernel at the ideal instance runs with its arguments unchanged. -/
theorem frame_kernelIdeal : Cert.frame_KernelIdeal := fun m ρ _ => Cert.KernelIdeal.Acc.frame (F := Ideal) m ρ

/-- The reference runs with its arguments unchanged: its run, the result dropped. -/
theorem frame_referenceIdeal : Cert.frame_ReferenceIdeal := fun m ρ _ =>
  (θ_run Cert.ReferenceIdeal.defs _ _).mono (fun _ h c => (h c).2) (Cert.ReferenceIdeal.RefValue.ref_run m ρ)

/-- The idealization rewrote no operation. -/
theorem preserves : Cert.preserves_Kernel_KernelIdeal := trivial

/-- From memories agreeing on the arguments, the kernel's and the reference's results are both
    `combine (lossArr P T) (countsArr T) (countsArr P)` of the kernel's argument arrays P, T. -/
theorem algebraic : Cert.algebraic_KernelIdeal_ReferenceIdeal := by
  intro m ρ m' ρ' _ hagree
  refine ⟨fun c => Cert.BinLoss.combine (F := Ideal)
      (Cert.BinLoss.lossArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.BinLoss.countsArr (m ((c.tc : Thread Cert.KernelIdeal.nD Cert.KernelIdeal.τ).loc Cert.KernelIdeal.main_arg1)))
      (Cert.BinLoss.countsArr (m ((c.tc : Thread Cert.KernelIdeal.nD Cert.KernelIdeal.τ).loc Cert.KernelIdeal.main_arg0))),
    Cert.KernelIdeal.Acc.kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
